-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S1000x512 : Shape := ⟨2, ![1000, 512]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x512 .f32) (main_arg1 : IVec S16384 32) (main_arg2 : FVec F S1000x512 .f32) (main_arg3 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 1000#32
  fn_part1 (F := F) main_arg1 main_v13 main_v15 main_c_5
-- ==== Kernel.lean ====
abbrev S16384x512 : Shape := ⟨2, ![16384, 512]⟩
abbrev S16384 : Shape := ⟨1, ![16384]⟩
abbrev S1000x512 : Shape := ⟨2, ![1000, 512]⟩
abbrev S1 : Shape := ⟨1, ![1]⟩
abbrev S16384x1 : Shape := ⟨2, ![16384, 1]⟩
abbrev S_ : Shape := ⟨0, ![]⟩
abbrev S1024x512 : Shape := ⟨2, ![1024, 512]⟩
abbrev S1024 : Shape := ⟨1, ![1024]⟩
abbrev S1x1024 : Shape := ⟨2, ![1, 1024]⟩
abbrev S1x1 : Shape := ⟨2, ![1, 1]⟩
abbrev S128x128 : Shape := ⟨2, ![128, 128]⟩
abbrev S1024x1 : Shape := ⟨2, ![1024, 1]⟩
abbrev S8x128 : Shape := ⟨2, ![8, 128]⟩
abbrev S1024x1024 : Shape := ⟨2, ![1024, 1024]⟩
abbrev S128x1 : Shape := ⟨2, ![128, 1]⟩
abbrev S128 : Shape := ⟨1, ![128]⟩

abbrev nBuf : Space → Nat
  | .hbm => 21
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S1000x512, .f32⟩
  | .hbm, ⟨3, _⟩ => ⟨S1, .f32⟩
  | .hbm, ⟨4, _⟩ => ⟨S16384x1, .i32⟩
  | .hbm, ⟨5, _⟩ => ⟨S_, .i32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1024x512, .bf16⟩
  | .hbm, ⟨13, _⟩ => ⟨S1x1, .f32⟩
  | .hbm, ⟨14, _⟩ => ⟨S128x128, .f32⟩
  | .hbm, ⟨15, _⟩ => ⟨S128x1, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S1024x512, .bf16⟩
  | .local _ .vmem, ⟨5, _⟩ => ⟨S1x1024, .f32⟩
  | .local _ .vmem, ⟨6, _⟩ => ⟨S1x1, .f32⟩
  | .local _ .vmem, ⟨7, _⟩ => ⟨S8x128, .f32⟩
  | .local _ .vmem, ⟨8, _⟩ => ⟨S8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384_S16384x1 : S16384.ShapeCasts S16384x1
  pads_S1000x512_S1024x512_0240_000 : S1000x512.Pads (![0, 0] : Fin 2 → Nat) ![24, 0] ![0, 0] S1024x512
  h_S_ : 0 < S_.numel
  reducesTo_S1024x512_S1024_d1 : S1024x512.ReducesTo [1] S1024
  shapeCasts_S1024_S1x1024 : S1024.ShapeCasts S1x1024
  bitsLt_bf16_f32 : FTy.bits .bf16 < FTy.bits .f32
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x512_S1024 : S1024x512.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  iota_S1024x1024_d1_w32 : S1024x1024.Iotas .tc 32 [1]
  reduces_S1024x1024_S1024 : S1024x1024.Reduces [1] S1024
  reduces_S1024x1_S1 : S1024x1.Reduces [0] S1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S128x128_S128x1_0_0 : S128x128.Slices ![0, 0] S128x1
  shapeCasts_S128x1_S128 : S128x1.ShapeCasts S128
  reducesTo_S128_S_d0 : S128.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S128x128.size a
  hwx0_5 : ∀ i : grid0.Coords, EltTy.bits .f32 = 32 ∨ (Rect.block (s := S128x128) S8x128.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S1000x512 : Shape := ⟨2, ![1000, 512]⟩
abbrev S1 : Shape := ⟨1, ![1]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S512x1000 : Shape := ⟨2, ![512, 1000]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S1000x512, .f32⟩
  | .hbm, ⟨3, _⟩ => ⟨S1, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1000x512, .f32⟩
  | .hbm, ⟨9, _⟩ => ⟨S_, .f32⟩
  | .hbm, ⟨10, _⟩ => ⟨S1000, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S512x1000, .f32⟩
  | .hbm, ⟨16, _⟩ => ⟨S16384x1000, .f32⟩
  | .hbm, ⟨17, _⟩ => ⟨S_, .f32⟩
  | .hbm, ⟨18, _⟩ => ⟨S16384x1000, .f32⟩
  | .hbm, ⟨19, _⟩ => ⟨S16384x1000, .f32⟩
  | .hbm, ⟨20, _⟩ => ⟨S16384x1000, .f32⟩
  | .hbm, ⟨21, _⟩ => ⟨S16384x1, .i32⟩
  | .hbm, ⟨22, _⟩ => ⟨S1000, .i32⟩
  | .hbm, ⟨23, _⟩ => ⟨S1x1000, .i32⟩
  | .hbm, ⟨24, _⟩ => ⟨S16384x1000, .i32⟩
  | .hbm, ⟨25, _⟩ => ⟨S16384x1000, .i32⟩
  | .hbm, ⟨26, _⟩ => ⟨S16384x1000, .i1⟩
  | .hbm, ⟨27, _⟩ => ⟨S_, .f32⟩
  | .hbm, ⟨28, _⟩ => ⟨S_, .f32⟩
  | .hbm, ⟨29, _⟩ => ⟨S16384x1000, .f32⟩
  | .hbm, ⟨30, _⟩ => ⟨S16384x1000, .f32⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S16384x1000, .f32⟩
  | .hbm, ⟨36, _⟩ => ⟨S16384x1000, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x512_S512x1000_1_0 : S1000x512.Transposes [1, 0] S512x1000
  bcast_S_S16384x1000 : S_.BroadcastsInDim S16384x1000 (![] : Fin 0 → Fin S16384x1000.rank)
  reducesTo_S16384x1000_S16384_d1 : S16384x1000.ReducesTo [1] S16384
  shapeCasts_S1_S_ : S1.ShapeCasts S_
  bcast_S_S16384 : S_.BroadcastsInDim S16384 (![] : Fin 0 → Fin S16384.rank)
  reducesTo_S16384_S_d0 : S16384.ReducesTo [0] S_
  dot_S16384x512_S512x1000_S16384x1000_1_0_0_1_n_n_wf : DotDims.WF S16384x512 S512x1000 S16384x1000 [1] [0] [0] [1] [] []

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf

class Facts : Prop extends Facts₀ where

variable [Facts]
-- ==== Proof.Spec.lean ====
/-
  The margin loss between a point's own class centre and its nearest other centre, as one function of the arrays.

  For a batch of points `x` (one row each), class centres `ctr` (one row each), a label per point and a margin `m`, the
  squared distance from point `r` to centre `c` is spelt `(‖x_r‖² + ‖ctr_c‖²) − 2·⟨x_r, ctr_c⟩`. A row's loss is
  `max (m + d(r, label r) − min over the other classes of d(r, ·), 0)`, the distance to the own class picked out by a sum
  of a one-hot selection and the other classes by masking the own class with `+∞` under the minimum. The result is the
  sum of the rows' losses divided by the batch size.

  Two spellings are stated. The first sums and minimises over the 1000 classes. The second works on the centres padded
  with 24 zero rows to 1024: the selection sum runs over all 1024 columns, the minimum masks the own class AND the 24
  padding columns with `+∞`, the rows are summed tile by tile (16 tiles of 1024 rows), each tile's sum is spread as eight
  equal parts `sum · (1/8)` over eight rows of a [128,128] array, and column 0 of that array is summed again.
-/
import Idealize.ShloMosaic.PureOps.Ideal
import Idealize.ShloMosaic.Lib.ValueIdx

noncomputable section

namespace Cert.MarginLoss

open Idealize.ShloMosaic Idealize.ShloMosaic.ValueIdx

/-- The f32 word of 2. Both programs carry it; it is never evaluated. -/
abbrev TWO : EReal := Ideal.ofBits .f32 0x40000000#32
/-- The f32 word of 1/8. -/
abbrev EIGHTH : EReal := Ideal.ofBits .f32 0x3E000000#32
/-- The f32 word of 16384, the batch size. Both programs divide by it; it is never evaluated. -/
abbrev BATCH : EReal := Ideal.ofBits .f32 0x46800000#32

/-- The squared distance from its three sums: `(‖x‖² + ‖c‖²) − 2·⟨x, c⟩`. -/
def sqd (xx cc dot : EReal) : EReal := (xx + cc) - TWO * dot

/-- One row's loss over the 1000 classes: `d` the row's distances, `lbl` its label word, `m` the margin. -/
def rowLoss (m : EReal) (lbl : BitVec 32) (d : Fin 1000 → EReal) : EReal :=
  max ((m + ∑ c : Fin 1000, if lbl = BitVec.ofNat 32 c.val then d c else 0)
      - (Finset.univ : Finset (Fin 1000)).fold min ⊤ (fun c => if lbl = BitVec.ofNat 32 c.val then ⊤ else d c)) 0

/-- One row's loss over 1024 columns of which the last 24 are padding: the padding columns are masked under the
    minimum, and enter the selection sum like any column. -/
def rowLossPadded (m : EReal) (lbl : BitVec 32) (d : Fin 1024 → EReal) : EReal :=
  max ((m + ∑ c : Fin 1024, if lbl = BitVec.ofNat 32 c.val then d c else 0)
      - (Finset.univ : Finset (Fin 1024)).fold min ⊤
          (fun c => if lbl = BitVec.ofNat 32 c.val ∨ ¬ c.val < 1000 then ⊤ else d c)) 0

section Arrays

variable (x : (⟨2, ![16384, 512]⟩ : Shape).Idx → EReal) (lbl : (⟨1, ![16384]⟩ : Shape).Idx → BitVec 32)
  (ctr : (⟨2, ![1000, 512]⟩ : Shape).Idx → EReal) (mg : (⟨1, ![1]⟩ : Shape).Idx → EReal)

/-- `‖x_r‖²`. -/
def xx (r : Fin 16384) : EReal := ∑ k : Fin 512, x (ix2 r k) * x (ix2 r k)

/-- `‖ctr_c‖²`. -/
def cc (c : Fin 1000) : EReal := ∑ k : Fin 512, ctr (ix2 c k) * ctr (ix2 c k)

/-- `⟨x_r, ctr_c⟩`. -/
def dot (r : Fin 16384) (c : Fin 1000) : EReal := ∑ k : Fin 512, x (ix2 r k) * ctr (ix2 c k)

/-- The distances of row `r` to the 1000 centres. -/
def dist (r : Fin 16384) (c : Fin 1000) : EReal := sqd (xx x r) (cc ctr c) (dot x ctr r c)

/-- THE RESULT, first spelling: the mean of the rows' losses. -/
def total : EReal :=
  Ideal.div (∑ r : Fin 16384, rowLoss (mg (ix1 0)) (lbl (ix1 r)) (dist x ctr r)) BATCH

/-- The centres padded with 24 zero rows. -/
def padded : (⟨2, ![1024, 512]⟩ : Shape).Idx → EReal := fun i =>
  if h : (i 0).val < 1000 then ctr (ix2 ⟨(i 0).val, h⟩ ⟨(i 1).val, (i 1).isLt⟩) else 0

variable (P : (⟨2, ![1024, 512]⟩ : Shape).Idx → EReal)

/-- `‖P_q‖²` for a padded table `P`. -/
def ccP (q : Fin 1024) : EReal := ∑ k : Fin 512, P (ix2 q k) * P (ix2 q k)

/-- `⟨x_r, P_q⟩`. -/
def dotP (r : Fin 16384) (q : Fin 1024) : EReal := ∑ k : Fin 512, x (ix2 r k) * P (ix2 q k)

/-- The distances of row `r` to the 1024 rows of the padded table. -/
def distP (r : Fin 16384) (q : Fin 1024) : EReal := sqd (xx x r) (ccP P q) (dotP x P r q)

/-- Row `p` of tile `t`. -/
def rowOf (t : Fin 16) (p : Fin 1024) : Fin 16384 := ⟨1024 * t.val + p.val, by omega⟩

/-- The sum of the losses of tile `t`'s 1024 rows. -/
def tileSum (t : Fin 16) : EReal :=
  ∑ p : Fin 1024, rowLossPadded (mg (ix1 0)) (lbl (ix1 (rowOf t p))) (distP x P (rowOf t p))

/-- The [128,128] array of partial results: rows `8t … 8t+7` hold tile `t`'s sum times 1/8, in every column. -/
def partials : (⟨2, ![128, 128]⟩ : Shape).Idx → EReal := fun i =>
  tileSum x lbl mg P ⟨(i 0).val / 8, by have h : (i 0).val < 128 := (i 0).isLt; omega⟩ * EIGHTH

/-- THE RESULT, second spelling: column 0 of the partial results summed, divided by the batch size. -/
def totalTiled : EReal :=
  Ideal.div (∑ j : Fin 128, partials x lbl mg P (ix2 j 0)) BATCH

end Arrays

/-! ## The words the two spellings evaluate -/

/-- The f32 word of plus infinity is the top element. -/
theorem ofBits_pos_inf : Ideal.ofBits .f32 0x7F800000#32 = ⊤ := by
  simp [Ideal.ofBits, Ideal.ieee]

/-- The f32 word `0x3E000000` is the real number 1/8. -/
theorem eighth_eq : EIGHTH = ((1 / 8 : ℝ) : EReal) := by
  simp [Ideal.ofBits, Ideal.ieee, -EReal.coe_mul]; norm_num

end Cert.MarginLoss

end
-- ==== Proof.LibBlockedSum.lean ====
/-
  A finite sum taken block by block. A sum over the first `a * b` naturals, cut into `a` consecutive blocks of
  length `b`, is the sum over the blocks of each block's sum: block `s` holds the naturals `b * s + j`, `j < b`.
  This is only associativity and commutativity of the addition, so it holds in every commutative additive monoid —
  in particular on the extended reals, where nothing about finiteness is asked. Stated three ways: over ranges, with
  the inner sum over `Fin b`, and with the outer sum over `Fin n` for `n = a * b`.
-/
import Mathlib.Algebra.BigOperators.Fin
import Mathlib.Algebra.BigOperators.Intervals

namespace BlockedSum

open Finset

variable {β : Type*} [AddCommMonoid β]

/-- The sum over `range (a * b)` is the sum over the `a` blocks of the sums over each block's `b` members. -/
theorem sum_range_blocks (a b : ℕ) (g : ℕ → β) :
    ∑ s ∈ range a, ∑ j ∈ range b, g (b * s + j) = ∑ h ∈ range (a * b), g h := by
  induction a with
  | zero => simp
  | succ a ih =>
    rw [sum_range_succ, ih, Nat.succ_mul, sum_range_add, Nat.mul_comm a b]

/-- The same with each block's members indexed by `Fin b`. -/
theorem sum_range_blocks_fin (a b : ℕ) (g : ℕ → β) :
    ∑ s ∈ range a, ∑ j : Fin b, g (b * s + j.val) = ∑ h ∈ range (a * b), g h := by
  rw [← sum_range_blocks a b g]
  exact sum_congr rfl fun s _ => (Finset.sum_range fun j => g (b * s + j)).symm

/-- … and the whole sum indexed by `Fin n`, `n = a * b`: the form in which a contraction over an axis of extent `n`
    meets the same contraction accumulated tile by tile. -/
theorem sum_fin_blocks (a b n : ℕ) (hn : n = a * b) (g : ℕ → β) :
    ∑ s ∈ range a, ∑ j : Fin b, g (b * s + j.val) = ∑ h : Fin n, g h.val := by
  subst hn
  rw [sum_range_blocks_fin, Finset.sum_range]

end BlockedSum
-- ==== Proof.Algebra.lean ====
/-
  The two spellings of the margin loss are equal when every label is a class index below 1000.

  The padded table's first 1000 rows are the centres' rows, so the distances to those rows agree. In a row's loss the 24
  padding columns add nothing to the one-hot selection sum (no label below 1000 is the word of a column from 1000 on) and
  are masked by the top element under the minimum, for which it is neutral. Eight parts sum·(1/8) of a nonnegative
  extended real add up to it, and a sum over 16384 rows is the sum over 16 tiles of the sums over each tile's 1024 rows.
  Nothing about finiteness of the entries is used: sums over a commutative additive monoid reorder freely, minima over a
  linear order fold freely, and the one arithmetic law (the eight parts) holds for every nonnegative extended real.
-/
import Mathlib.Data.EReal.Operations
import proofs.«113362_j2250562863872_2_alg».proof.Proof.Spec
import proofs.«113362_j2250562863872_2_alg».proof.Proof.LibBlockedSum

noncomputable section

namespace Cert.MarginLoss

open Idealize.ShloMosaic Idealize.ShloMosaic.ValueIdx

/-! ## Sums and minima over 1024 columns of which the last 24 are neutral -/

/-- A sum over 1024 columns whose last 24 terms are zero is the sum over the first 1000. -/
theorem sum_pad (F : Fin 1024 → EReal) (G : Fin 1000 → EReal)
    (h1 : ∀ c : Fin 1000, F ⟨c.val, by omega⟩ = G c)
    (h2 : ∀ c : Fin 1024, ¬ c.val < 1000 → F c = 0) :
    ∑ c, F c = ∑ c, G c := by
  have h := Fin.sum_trunc (a := 1000) (b := 24) (M := EReal) F
    (fun j => h2 _ (by simp [Fin.natAdd]))
  refine h.trans (Finset.sum_congr rfl fun c _ => ?_)
  exact h1 c

/-- A minimum over 1024 columns whose last 24 terms are the top element is the minimum over the first 1000. -/
theorem fold_min_pad (F : Fin 1024 → EReal) (G : Fin 1000 → EReal)
    (h1 : ∀ c : Fin 1000, F ⟨c.val, by omega⟩ = G c)
    (h2 : ∀ c : Fin 1024, ¬ c.val < 1000 → F c = ⊤) :
    (Finset.univ : Finset (Fin 1024)).fold min ⊤ F = (Finset.univ : Finset (Fin 1000)).fold min ⊤ G := by
  apply le_antisymm
  · refine (Finset.le_fold_min _).2 ⟨le_top, fun c _ => ?_⟩
    exact (Finset.fold_min_le _).2 (Or.inr ⟨⟨c.val, by omega⟩, Finset.mem_univ _, le_of_eq (h1 c)⟩)
  · refine (Finset.le_fold_min _).2 ⟨le_top, fun c _ => ?_⟩
    by_cases hc : c.val < 1000
    · exact (Finset.fold_min_le _).2 (Or.inr ⟨⟨c.val, hc⟩, Finset.mem_univ _, le_of_eq (h1 ⟨c.val, hc⟩).symm⟩)
    · rw [h2 c hc]; exact le_top

/-! ## The padded row loss -/

/-- A word whose value is below 1000 is not the word of a column from 1000 on. -/
theorem ne_ofNat_of_lt (w : BitVec 32) (hw : w.toNat < 1000) (c : Fin 1024) (hc : ¬ c.val < 1000) :
    w ≠ BitVec.ofNat 32 c.val := by
  intro h
  have h' := congrArg BitVec.toNat h
  rw [BitVec.toNat_ofNat, Nat.mod_eq_of_lt (by have := c.isLt; omega)] at h'
  omega

/-- The loss over 1024 columns is the loss over the 1000 classes when the label is below 1000 and the first 1000
    distances agree. -/
theorem rowLossPadded_eq (m : EReal) (w : BitVec 32) (d' : Fin 1024 → EReal) (d : Fin 1000 → EReal)
    (hw : w.toNat < 1000) (hd : ∀ c : Fin 1000, d' ⟨c.val, by omega⟩ = d c) :
    rowLossPadded m w d' = rowLoss m w d := by
  unfold rowLossPadded rowLoss
  have hs : (∑ c : Fin 1024, if w = BitVec.ofNat 32 c.val then d' c else 0)
      = ∑ c : Fin 1000, if w = BitVec.ofNat 32 c.val then d c else 0 := by
    refine sum_pad _ _ (fun c => ?_) (fun c hc => ?_)
    · simp only [hd c]
    · exact if_neg (ne_ofNat_of_lt w hw c hc)
  have hm : (Finset.univ : Finset (Fin 1024)).fold min ⊤
        (fun c => if w = BitVec.ofNat 32 c.val ∨ ¬ c.val < 1000 then ⊤ else d' c)
      = (Finset.univ : Finset (Fin 1000)).fold min ⊤ (fun c => if w = BitVec.ofNat 32 c.val then ⊤ else d c) := by
    refine fold_min_pad _ _ (fun c => ?_) (fun c hc => ?_)
    · have hc : c.val < 1000 := c.isLt
      simp only [hd c, hc, not_true_eq_false, or_false]
    · exact if_pos (Or.inr hc)
  rw [hs, hm]

/-! ## Eight equal parts of a nonnegative extended real -/

/-- Eight parts P·(1/8) of a nonnegative extended real P add up to P: for the top element every part is the top
    element, for a real number it is real arithmetic. -/
theorem eight_parts (P : EReal) (hP : 0 ≤ P) : ∑ _j : Fin 8, P * EIGHTH = P := by
  rw [eighth_eq]
  induction P using EReal.rec with
  | bot => exact absurd hP (by simp)
  | coe r =>
    rw [← EReal.coe_mul, Finset.sum_const, Finset.card_univ, Fintype.card_fin]
    rw [show (8 : ℕ) • ((r * (1 / 8) : ℝ) : EReal) = (((8 : ℕ) • (r * (1 / 8)) : ℝ) : EReal) from
      (EReal.coe_nsmul _ _).symm]
    congr 1
    simp only [nsmul_eq_mul]; push_cast; ring
  | top =>
    rw [EReal.top_mul_of_pos (EReal.coe_pos.2 (by norm_num)), Fin.sum_univ_eight]
    simp only [EReal.top_add_top]

/-! ## Sums taken tile by tile -/

/-- Member j of block s of length b lies below a·b when s is below a and j below b. -/
theorem tile_lt {a b s j : ℕ} (hs : s < a) (hj : j < b) : b * s + j < a * b :=
  calc b * s + j < b * s + b := by omega
    _ = b * (s + 1) := by ring
    _ ≤ b * a := Nat.mul_le_mul_left b hs
    _ = a * b := Nat.mul_comm b a

/-- A sum over a·b indices is the sum over the a blocks of the sums over each block's b members. -/
theorem sum_fin_tiles {β : Type*} [AddCommMonoid β] (a b : ℕ) (F : Fin (a * b) → β) :
    ∑ h : Fin (a * b), F h = ∑ s : Fin a, ∑ j : Fin b, F ⟨b * s.val + j.val, tile_lt s.isLt j.isLt⟩ := by
  have h := BlockedSum.sum_fin_blocks a b (a * b) rfl
    (fun h => if hh : h < a * b then F ⟨h, hh⟩ else 0)
  rw [Finset.sum_range] at h
  refine Eq.trans ?_ (h.symm.trans ?_)
  · refine Finset.sum_congr rfl fun i _ => ?_
    rw [dif_pos i.isLt]
  · refine Finset.sum_congr rfl fun s _ => Finset.sum_congr rfl fun j _ => ?_
    rw [dif_pos (tile_lt s.isLt j.isLt)]

/-! ## The padded table's first 1000 rows -/

section Arrays

variable (x : (⟨2, ![16384, 512]⟩ : Shape).Idx → EReal) (lbl : (⟨1, ![16384]⟩ : Shape).Idx → BitVec 32)
  (ctr : (⟨2, ![1000, 512]⟩ : Shape).Idx → EReal) (mg : (⟨1, ![1]⟩ : Shape).Idx → EReal)

/-- Row q < 1000 of the padded table is row q of the centres. -/
theorem padded_row (q : Fin 1000) (k : Fin 512) :
    padded ctr (ix2 (⟨q.val, by omega⟩ : Fin 1024) k) = ctr (ix2 q k) := by
  have h : ((ix2 (⟨q.val, by omega⟩ : Fin 1024) k) 0).val < 1000 := q.isLt
  unfold padded
  rw [dif_pos h]

/-- The squared norm of the padded table's row q < 1000 is that of the centres' row q. -/
theorem ccP_padded (q : Fin 1000) : ccP (padded ctr) ⟨q.val, by omega⟩ = cc ctr q := by
  unfold ccP cc
  exact Finset.sum_congr rfl fun k _ => by rw [padded_row]

/-- The inner product with the padded table's row q < 1000 is that with the centres' row q. -/
theorem dotP_padded (r : Fin 16384) (q : Fin 1000) :
    dotP x (padded ctr) r ⟨q.val, by omega⟩ = dot x ctr r q := by
  unfold dotP dot
  exact Finset.sum_congr rfl fun k _ => by rw [padded_row]

/-- The distances to the padded table's first 1000 rows are the distances to the centres. -/
theorem distP_padded (r : Fin 16384) (q : Fin 1000) :
    distP x (padded ctr) r ⟨q.val, by omega⟩ = dist x ctr r q := by
  unfold distP dist
  rw [ccP_padded, dotP_padded]

/-! ## Nonnegativity -/

/-- A row's loss is a maximum with 0, so it is nonnegative. -/
theorem rowLossPadded_nonneg (m : EReal) (w : BitVec 32) (d : Fin 1024 → EReal) : 0 ≤ rowLossPadded m w d :=
  le_max_right _ _

/-- A tile's sum is a finite sum of nonnegative terms. -/
theorem tileSum_nonneg (P : (⟨2, ![1024, 512]⟩ : Shape).Idx → EReal) (t : Fin 16) : 0 ≤ tileSum x lbl mg P t :=
  Finset.sum_nonneg fun _ _ => rowLossPadded_nonneg _ _ _

end Arrays

/-! ## The eight rows of each tile -/

/-- Spreading each of 16 nonnegative values as eight parts over eight consecutive rows and summing the 128 rows gives
    the sum of the 16 values. -/
theorem sum_eighths (f : Fin 16 → EReal) (hf : ∀ t, 0 ≤ f t) :
    ∑ j : Fin 128, f ⟨j.val / 8, by have := j.isLt; omega⟩ * EIGHTH = ∑ t : Fin 16, f t := by
  have h := sum_fin_tiles 16 8 (fun j : Fin (16 * 8) => f ⟨j.val / 8, by have := j.isLt; omega⟩ * EIGHTH)
  refine h.trans (Finset.sum_congr rfl fun t _ => ?_)
  refine Eq.trans ?_ (eight_parts (f t) (hf t))
  refine Finset.sum_congr rfl fun j _ => ?_
  have e : (⟨(8 * t.val + j.val) / 8, by have := t.isLt; have := j.isLt; omega⟩ : Fin 16) = t :=
    Fin.ext (by show (8 * t.val + j.val) / 8 = t.val; have := j.isLt; omega)
  show f ⟨(8 * t.val + j.val) / 8, _⟩ * EIGHTH = f t * EIGHTH
  rw [e]

/-! ## The two spellings -/

/-- The tiled spelling over the padded centres is the mean of the rows' losses over the 1000 classes, whenever every
    label is a class index below 1000. -/
theorem totalTiled_eq_total (x : (⟨2, ![16384, 512]⟩ : Shape).Idx → EReal)
    (lbl : (⟨1, ![16384]⟩ : Shape).Idx → BitVec 32) (ctr : (⟨2, ![1000, 512]⟩ : Shape).Idx → EReal)
    (mg : (⟨1, ![1]⟩ : Shape).Idx → EReal)
    (hl : ∀ r : Fin 16384, (lbl (ix1 r)).toNat < 1000) :
    totalTiled x lbl mg (padded ctr) = total x lbl ctr mg := by
  unfold totalTiled total
  refine congrArg (Ideal.div · BATCH) ?_
  have h1 : ∑ j : Fin 128, partials x lbl mg (padded ctr) (ix2 j 0)
      = ∑ t : Fin 16, tileSum x lbl mg (padded ctr) t :=
    sum_eighths (tileSum x lbl mg (padded ctr)) (tileSum_nonneg x lbl mg _)
  rw [h1]
  have h2 := sum_fin_tiles 16 1024
    (fun r : Fin (16 * 1024) => rowLoss (mg (ix1 0)) (lbl (ix1 r)) (dist x ctr r))
  refine Eq.trans ?_ h2.symm
  refine Finset.sum_congr rfl fun t _ => ?_
  unfold tileSum
  refine Finset.sum_congr rfl fun p _ => ?_
  exact rowLossPadded_eq _ _ _ _ (hl _) (fun c => distP_padded x ctr _ c)

end Cert.MarginLoss

end
-- ==== Proof.LabelRange.lean ====
/-
  From the precondition to the range of the labels.  The precondition is a conjunction of one-bit words: every entry
  of the three floating-point inputs is finite, and every label l satisfies 0 ≤ l and l < 1000 read as signed 32-bit
  words.  The last conjunct is an "all" over the 16384 labels of the one-bit word (0 ≤ l) and (l < 1000); read back at
  label r it says 0 ≤ l.toInt < 1000, and a word whose signed value is nonnegative has that value as its unsigned
  value, so l.toNat < 1000.  Two small facts on words follow: a word below 1000 differs from every literal in
  [1000, 1024), and a word equals a literal below 1024 exactly when its unsigned value is that literal.
-/
import proofs.«113362_j2250562863872_2_alg».proof.Pre_finite_inputs
import proofs.«113362_j2250562863872_2_alg».proof.Proof.Gen.Pre_finite_inputs
import Idealize.ShloMosaic.Lib.ReduceAll
import Idealize.ShloMosaic.Lib.ValueIdx

noncomputable section

namespace Cert.MarginLoss.Labels

open Idealize.ShloMosaic Idealize.ShloMosaic.ValueIdx

/-- A 32-bit word whose signed value lies in [0, 1000) has an unsigned value below 1000: a nonnegative signed value
    is the unsigned value, and a word with the sign bit set has a negative signed value. -/
theorem toNat_lt_of_signed (w : BitVec 32) (h0 : (0#32).toInt ≤ w.toInt) (h1 : w.toInt < (1000#32).toInt) :
    w.toNat < 1000 := by
  have h32 := w.isLt
  have e0 : (0#32).toInt = 0 := by decide
  have e1 : (1000#32).toInt = 1000 := by decide
  rw [e0] at h0
  rw [e1] at h1
  rw [BitVec.toInt_eq_toNat_cond] at h0 h1
  by_cases hc : 2 * w.toNat < 2 ^ 32
  · rw [if_pos hc] at h1
    omega
  · rw [if_neg hc] at h0
    omega

/-- The scalar shape has one index. -/
instance : Subsingleton Cert.Pre_finite_inputs.S_.Idx := ⟨fun a b => funext fun d => d.elim0⟩

/-- THE PRECONDITION DECODED at label r: the label word is a natural number below 1000. -/
theorem label_lt [Cert.Pre_finite_inputs.Facts] {F : FTy → Type} [FloatOps F]
    (a0 : FVec F Cert.Pre_finite_inputs.S16384x512 .f32) (a1 : IVec Cert.Pre_finite_inputs.S16384 32)
    (a2 : FVec F Cert.Pre_finite_inputs.S1000x512 .f32) (a3 : FVec F Cert.Pre_finite_inputs.S1 .f32)
    (h : Cert.Pre_finite_inputs.fn (F := F) a0 a1 a2 a3 = fun _ => 1#1) (r : Fin 16384) :
    (a1 (Idealize.ShloMosaic.ValueIdx.ix1 r)).toNat < 1000 := by
  -- the precondition at the one index of its result, as a conjunction of one-bit words
  have e := congrFun h ix0
  dsimp only [Cert.Pre_finite_inputs.fn, Cert.Pre_finite_inputs.fn_part1] at e
  -- its last conjunct: the "all" over the labels
  have eall := (IntOp.andi_eq_one.1 e).2
  -- read back at label r: both comparisons hold there
  have er := Host.reduce_andi_all _ _ _ _ ix0 eall (ix1 r)
  obtain ⟨hge, hlt⟩ := IntOp.andi_eq_one.1 er
  -- the compared scalars, broadcast to every label, are the literals 0 and 1000
  exact toNat_lt_of_signed _ (IntOp.cmpi_sge.1 hge) (IntOp.cmpi_slt.1 hlt)

/-- A word below 1000 is none of the literals 1000, …, 1023. -/
theorem ne_ofNat_of_ge (w : BitVec 32) (hw : w.toNat < 1000) (c : ℕ) (hc1 : 1000 ≤ c) (hc2 : c < 1024) :
    w ≠ BitVec.ofNat 32 c := by
  intro e
  rw [e, BitVec.toNat_ofNat, Nat.mod_eq_of_lt (by omega)] at hw
  omega

/-- A word is a literal below 1024 exactly when its unsigned value is that literal. -/
theorem eq_ofNat_iff (w : BitVec 32) (c : ℕ) (hc : c < 1024) : w = BitVec.ofNat 32 c ↔ w.toNat = c := by
  constructor
  · intro e
    rw [e, BitVec.toNat_ofNat]
    exact Nat.mod_eq_of_lt (by omega)
  · intro e
    apply BitVec.eq_of_toNat_eq
    rw [BitVec.toNat_ofNat, e]
    exact (Nat.mod_eq_of_lt (by omega)).symm

end Cert.MarginLoss.Labels

end
-- ==== Proof.LibIndicator.lean ====
/-
  One-bit conditions and their 0/1 indicators on the extended reals.

  A comparison yields a one-bit word that is 1 exactly when the relation holds; exclusive-or with 1 negates it and
  bitwise-and conjoins two of them. Widened to 32 bits and converted as a signed integer, such a word is the extended
  real 1 or 0. A finite sum of such indicators is the number of indices at which the condition holds, and their
  maximum folded from the bottom element is positive exactly when the condition holds somewhere.
-/
import Idealize.ShloMosaic.PureOps.Ideal
import Idealize.ShloMosaic.Lib.ValueIdx
import Mathlib.Algebra.BigOperators.Ring.Finset

namespace Idealize.ShloMosaic.Indicator

open Idealize.ShloMosaic

/-- The word of a Boolean is 1 exactly when the Boolean is true. -/
theorem ofBool_eq_one_iff (b : Bool) : BitVec.ofBool b = 1#1 ↔ b = true := by cases b <;> decide

/-- `x > y` as a one-bit word is 1 exactly when `y < x`. -/
theorem cmp_ogt_eq_one_iff (x y : EReal) : Ideal.cmp .ogt x y = 1#1 ↔ y < x := by
  unfold Ideal.cmp; rw [ofBool_eq_one_iff]; exact decide_eq_true_iff

/-- `x < y` as a one-bit word is 1 exactly when `x < y`. -/
theorem cmp_olt_eq_one_iff (x y : EReal) : Ideal.cmp .olt x y = 1#1 ↔ x < y := by
  unfold Ideal.cmp; rw [ofBool_eq_one_iff]; exact decide_eq_true_iff

/-- Equality of two words as a one-bit word is 1 exactly when they are equal. -/
theorem cmpi_eq_eq_one_iff {w : ℕ} (x y : BitVec w) : IntOp.cmpi .eq x y = 1#1 ↔ x = y := by
  unfold IntOp.cmpi; rw [ofBool_eq_one_iff]; exact beq_iff_eq

/-- Exclusive-or with 1 negates a one-bit condition. -/
theorem xori_one_eq_one_iff (c : BitVec 1) : IntOp.xori c 1#1 = 1#1 ↔ ¬ c = 1#1 := by
  rcases BitVec.eq_zero_or_eq_one c with h | h <;> subst h <;> decide

/-- Bitwise-and conjoins two one-bit conditions. -/
theorem andi_eq_one_iff (c d : BitVec 1) : IntOp.andi c d = 1#1 ↔ c = 1#1 ∧ d = 1#1 := by
  rcases BitVec.eq_zero_or_eq_one c with h | h <;> rcases BitVec.eq_zero_or_eq_one d with h' | h' <;>
    subst h <;> subst h' <;> decide

/-- A select on a one-bit word is the conditional on the word being 1. -/
theorem select_eq_ite {α : Type} (c : BitVec 1) (a b : α) : Scalar.select c a b = if c = 1#1 then a else b := rfl

/-- A one-bit word widened to 32 bits and converted as a signed integer is 1 where the bit is set, 0 elsewhere. -/
theorem sitofp_setWidth_bit (c : BitVec 1) :
    FloatOps.sitofp (F := Ideal) .f32 (c.setWidth 32) = if c = 1#1 then 1 else 0 := by
  show ((((c.setWidth 32).toInt : ℤ) : ℝ) : EReal) = _
  rcases BitVec.eq_zero_or_eq_one c with h | h
  · subst h
    have e : ((0#1 : BitVec 1).setWidth 32).toInt = 0 := by decide
    rw [e, if_neg (by decide)]; simp
  · subst h
    have e : ((1#1 : BitVec 1).setWidth 32).toInt = 1 := by decide
    rw [e, if_pos rfl]; simp

/-- A finite sum of 0/1 indicators on the extended reals is the number of indices where the condition holds. -/
theorem sum_indicator_eq_card {ι : Type*} [Fintype ι] (P : ι → Prop) [DecidablePred P] :
    (∑ i, (if P i then (1 : EReal) else 0)) = ((Finset.univ.filter P).card : EReal) :=
  Finset.sum_boole P Finset.univ

/-- The maximum of 0/1 indicators folded from the bottom element is positive exactly when the condition holds at some
    index. -/
theorem zero_lt_fold_max_indicator {ι : Type*} [Fintype ι] (P : ι → Prop) [DecidablePred P] :
    0 < (Finset.univ : Finset ι).fold max (⊥ : EReal) (fun i => if P i then (1 : EReal) else 0) ↔ ∃ i, P i := by
  rw [Finset.lt_fold_max]
  constructor
  · rintro (h | ⟨i, _, hi⟩)
    · exact absurd h (not_lt.mpr bot_le)
    · by_cases hp : P i
      · exact ⟨i, hp⟩
      · rw [if_neg hp] at hi; exact absurd hi (lt_irrefl _)
  · rintro ⟨i, hp⟩
    exact Or.inr ⟨i, Finset.mem_univ i, by rw [if_pos hp]; exact zero_lt_one⟩

/-- Comparisons of a natural number's cast with 1 and with another cast, on the extended reals. -/
theorem one_lt_natCast_iff (n : ℕ) : (1 : EReal) < (n : EReal) ↔ 1 < n := by
  rw [← Nat.cast_one (R := EReal)]; exact EReal.natCast_lt_iff

theorem zero_lt_natCast_iff (n : ℕ) : (0 : EReal) < (n : EReal) ↔ 0 < n := by
  rw [← Nat.cast_zero (R := EReal)]; exact EReal.natCast_lt_iff

end Idealize.ShloMosaic.Indicator
-- ==== Proof.LibRankOneSum.lean ====
/-
  A sum over the indices of a rank-one shape is the sum over its one coordinate.

  An index of the shape [n] is a function from the one axis to `Fin n`; sending it to its value on that axis is a
  bijection onto `Fin n`, with `ix1` as inverse. So a sum indexed by the shape's indices — the form in which a total
  reduction over a vector is read — is the same sum indexed by `Fin n`, in any commutative additive monoid.
-/
import Idealize.ShloMosaic.Lib.ValueIdx
import Mathlib.Algebra.BigOperators.Group.Finset.Basic

namespace RankOneSum

open Idealize.ShloMosaic Idealize.ShloMosaic.ValueIdx

/-- The indices of the shape [n] correspond to `Fin n`. -/
def idxEquiv1 {n : ℕ} : (⟨1, ![n]⟩ : Shape).Idx ≃ Fin n where
  toFun j := j 0
  invFun k := ix1 k
  left_inv j := (eq_ix1 j).symm
  right_inv _ := rfl

/-- A sum over the indices of [n] is the sum over `k : Fin n` at the index `ix1 k`. -/
theorem sum_idx1 {M : Type*} [AddCommMonoid M] {n : ℕ} (f : (⟨1, ![n]⟩ : Shape).Idx → M) :
    ∑ j, f j = ∑ k : Fin n, f (ix1 k) :=
  Fintype.sum_equiv idxEquiv1 _ _ fun j => congrArg f (eq_ix1 j)

end RankOneSum
-- ==== Proof.RefValue.lean ====
/-
  The reference's result is the specification's mean margin loss.

  The reference computes, for every point `r` and class `c`, the squared distance `(‖x_r‖² + ‖ctr_c‖²) − 2·⟨x_r, ctr_c⟩`
  from two row sums of squares and one contraction over the 512 features; compares the point's label with the class
  numbers 0 … 999 to get a one-hot condition; sums along each row the distances kept where the condition holds (zero
  elsewhere), which is the distance to the own centre; takes along each row the minimum, folded from plus infinity, of
  the distances with the own class replaced by plus infinity, which is the distance to the nearest other centre; and
  returns the sum over the rows of `max (m + own − nearest other, 0)` divided by the batch size.

  Each stage of the generated reading of the reference is identified, at an index written by its coordinates, with the
  corresponding quantity of the specification: the two squared norms, the inner product, the distance, the one-hot
  condition, the two selections, the two row reductions, the margin read out of its one-entry array, the row loss, and
  last the total. The index functions of the generated reading are equal to the coordinate-wise indices by evaluating
  them on each axis. The row minimum is read as a fold over the dropped axis's coordinates with the reduced index
  re-inserted, and the re-inserted index is again written by its coordinates.
-/
import proofs.«113362_j2250562863872_2_alg».proof.Proof.Gen.ReferenceIdeal.Read
import proofs.«113362_j2250562863872_2_alg».proof.Proof.Spec
import proofs.«113362_j2250562863872_2_alg».proof.Proof.LibIndicator
import proofs.«113362_j2250562863872_2_alg».proof.Proof.LibRankOneSum

noncomputable section

namespace Cert.MarginLoss.Ref

open Cert.ReferenceIdeal Cert.ReferenceIdeal.Gen Cert.ReferenceIdeal.Read Idealize.ShloMosaic Idealize.ShloMosaic.ValueIdx

variable (x : (⟨S16384x512, .f32⟩ : BufTy).Contents (Elt Ideal)) (lbl : (⟨S16384, .i32⟩ : BufTy).Contents (Elt Ideal))
  (ctr : (⟨S1000x512, .f32⟩ : BufTy).Contents (Elt Ideal)) (mg : (⟨S1, .f32⟩ : BufTy).Contents (Elt Ideal))

/-- The squared norm of point `r`: the first row sum of the reference. -/
theorem v1_row (r : Fin 16384) : val_main_v1 (F := Ideal) x (ix1 r) = Cert.MarginLoss.xx x r := by
  rw [val_main_v1_apply, val_main_cst_apply, Ideal.ofBits_def, Ideal.ofBits_zero_f32, zero_add]
  unfold Cert.MarginLoss.xx
  refine Finset.sum_congr rfl fun k _ => ?_
  have e : idx_main_v1 (ix1 r) k = ix2 r k :=
    funext fun a => Fin.ext (by match a with | ⟨0, _⟩ => rfl | ⟨1, _⟩ => rfl)
  rw [val_main_v0_apply, e, Ideal.mulf_def]

/-- The squared norm of centre `c`. -/
theorem v4_row (c : Fin 1000) : val_main_v4 (F := Ideal) ctr (ix1 c) = Cert.MarginLoss.cc ctr c := by
  rw [val_main_v4_apply, val_main_cst_0_apply, Ideal.ofBits_def, Ideal.ofBits_zero_f32, zero_add]
  unfold Cert.MarginLoss.cc
  refine Finset.sum_congr rfl fun k _ => ?_
  have e : idx_main_v4 (ix1 c) k = ix2 c k :=
    funext fun a => Fin.ext (by match a with | ⟨0, _⟩ => rfl | ⟨1, _⟩ => rfl)
  rw [val_main_v3_apply, e, Ideal.mulf_def]

/-- The inner product of point `r` with centre `c`. -/
theorem v10_at (r : Fin 16384) (c : Fin 1000) :
    val_main_v10 (F := Ideal) x ctr (ix2 r c) = Cert.MarginLoss.dot x ctr r c := by
  rw [val_main_v10_apply]
  unfold Cert.MarginLoss.dot
  refine Finset.sum_congr rfl fun k _ => ?_
  have el : lidx_main_v10 (ix2 r c) k = ix2 r k :=
    funext fun a => Fin.ext (by match a with | ⟨0, _⟩ => rfl | ⟨1, _⟩ => rfl)
  have er : idx_main_v9 (ridx_main_v10 (ix2 r c) k) = ix2 c k :=
    funext fun a => Fin.ext (by match a with | ⟨0, _⟩ => rfl | ⟨1, _⟩ => rfl)
  rw [val_main_v9_apply, el, er]

/-- The distance stage at `(r, c)` is the specification's squared distance. -/
theorem v13_at (r : Fin 16384) (c : Fin 1000) :
    val_main_v13 (F := Ideal) x ctr (ix2 r c) = Cert.MarginLoss.dist x ctr r c := by
  have e1 : idx_main_v2 (idx_main_v6 (ix2 r c)) = ix1 r :=
    funext fun a => Fin.ext (by match a with | ⟨0, _⟩ => rfl)
  have e2 : idx_main_v5 (idx_main_v7 (ix2 r c)) = ix1 c :=
    funext fun a => Fin.ext (by match a with | ⟨0, _⟩ => rfl)
  rw [val_main_v13_apply, val_main_v8_apply, val_main_v12_apply, val_main_v6_apply, val_main_v2_apply, e1,
    val_main_v7_apply, val_main_v5_apply, e2, val_main_v11_apply, val_main_cst_1_apply, v1_row, v4_row, v10_at,
    Ideal.subf_def, Ideal.addf_def, Ideal.mulf_def, Ideal.ofBits_def]
  rfl

/-- The one-hot condition at `(r, c)`: the label of point `r` is the word of `c`. -/
theorem v19_at (r : Fin 16384) (c : Fin 1000) :
    val_main_v19 (F := Ideal) lbl (ix2 r c) = 1#1 ↔ lbl (ix1 r) = BitVec.ofNat 32 c.val := by
  have e1 : idx_main_v14 (idx_main_v17 (ix2 r c)) = ix1 r :=
    funext fun a => Fin.ext (by match a with | ⟨0, _⟩ => rfl)
  rw [val_main_v19_apply, val_main_v17_apply, val_main_v14_apply, e1, val_main_v18_apply, val_main_v16_apply,
    val_main_v15_apply, Indicator.cmpi_eq_eq_one_iff]

/-- The own-class selection at `(r, c)`. -/
theorem v20_at (r : Fin 16384) (c : Fin 1000) :
    val_main_v20 (F := Ideal) x lbl ctr (ix2 r c)
      = if lbl (ix1 r) = BitVec.ofNat 32 c.val then Cert.MarginLoss.dist x ctr r c else 0 := by
  rw [val_main_v20_apply, Indicator.select_eq_ite, v13_at, val_main_call0_v1_apply, val_main_call0_v0_apply,
    val_main_cst_2_apply, Ideal.ofBits_def, Ideal.ofBits_zero_f32]
  exact if_congr (v19_at lbl r c) rfl rfl

/-- The other-classes masking at `(r, c)`. -/
theorem v22_at (r : Fin 16384) (c : Fin 1000) :
    val_main_v22 (F := Ideal) x lbl ctr (ix2 r c)
      = if lbl (ix1 r) = BitVec.ofNat 32 c.val then ⊤ else Cert.MarginLoss.dist x ctr r c := by
  rw [val_main_v22_apply, Indicator.select_eq_ite, v13_at, val_main_call1_v1_apply, val_main_call1_v0_apply,
    val_main_cst_4_apply, Ideal.ofBits_def, Cert.MarginLoss.ofBits_pos_inf]
  exact if_congr (v19_at lbl r c) rfl rfl

/-- The distance of point `r` to its own centre: the selection summed along the row. -/
theorem v21_row (r : Fin 16384) :
    val_main_v21 (F := Ideal) x lbl ctr (ix1 r)
      = ∑ c : Fin 1000, if lbl (ix1 r) = BitVec.ofNat 32 c.val then Cert.MarginLoss.dist x ctr r c else 0 := by
  rw [val_main_v21_apply, val_main_cst_3_apply, Ideal.ofBits_def, Ideal.ofBits_zero_f32, zero_add]
  refine Finset.sum_congr rfl fun c _ => ?_
  have e : idx_main_v21 (ix1 r) c = ix2 r c :=
    funext fun a => Fin.ext (by match a with | ⟨0, _⟩ => rfl | ⟨1, _⟩ => rfl)
  rw [e, v20_at]

/-- The reduced index `r` with column `c` put back is `(r, c)`. -/
theorem lift_row (h : S16384x1000.Reduces [1] S16384) (r : Fin 16384) (c : Fin 1000) :
    h.lift (ix1 r) c = ix2 r c :=
  funext fun a => Fin.ext (by match a with | ⟨0, _⟩ => rfl | ⟨1, _⟩ => rfl)

/-- The distance of point `r` to its nearest other centre: the minimum of the masked row, folded from plus infinity. -/
theorem v23_row (r : Fin 16384) :
    val_main_v23 (F := Ideal) x lbl ctr (ix1 r)
      = (Finset.univ : Finset (Fin 1000)).fold min ⊤
          (fun c => if lbl (ix1 r) = BitVec.ofNat 32 c.val then ⊤ else Cert.MarginLoss.dist x ctr r c) := by
  have h : S16384x1000.Reduces [1] S16384 := by decide
  unfold val_main_v23
  rw [Host.reduce_eq_fold_single FloatOps.minimumf _ _ reducesTo_S16384x1000_S16384_d1 h h_S_ (ix1 r),
    val_main_cst_5_apply, Ideal.ofBits_def, Cert.MarginLoss.ofBits_pos_inf]
  have hf : (val_main_v22 (F := Ideal) x lbl ctr ∘ h.lift (ix1 r))
      = fun c : Fin 1000 => if lbl (ix1 r) = BitVec.ofNat 32 c.val then ⊤ else Cert.MarginLoss.dist x ctr r c :=
    funext fun c : Fin 1000 => by
      show val_main_v22 (F := Ideal) x lbl ctr (h.lift (ix1 r) c) = _
      rw [lift_row h r c, v22_at]
  exact congrArg (fun f : Fin 1000 → EReal => (Finset.univ : Finset (Fin 1000)).fold min ⊤ f) hf

/-- The margin as a rank-zero value is the margin array's one entry. -/
theorem v24_at (i : S_.Idx) : val_main_v24 (F := Ideal) mg i = mg (ix1 0) := by
  unfold val_main_v24
  refine shapeCast_apply mg shapeCasts_S1_S_ i (ix1 0) ?_
  rw [Shape.rowMajor_val_one]
  exact (Shape.rowMajorPi_zero _ _).symm

/-- One row of the reference's loss is the specification's row loss. -/
theorem v29_row (r : Fin 16384) :
    val_main_v29 (F := Ideal) x lbl ctr mg (ix1 r)
      = Cert.MarginLoss.rowLoss (mg (ix1 0)) (lbl (ix1 r)) (Cert.MarginLoss.dist x ctr r) := by
  rw [val_main_v29_apply, val_main_v27_apply, val_main_v26_apply, val_main_v25_apply, v24_at, v21_row, v23_row,
    val_main_v28_apply, val_main_cst_6_apply, Ideal.maximumf_def, Ideal.subf_def, Ideal.addf_def, Ideal.ofBits_def,
    Ideal.ofBits_zero_f32]
  rfl

/-- THE REFERENCE'S RESULT is the specification's mean of the rows' losses. -/
theorem reference_eq :
    val_main_v31 (F := Ideal) x lbl ctr mg = fun _ => Cert.MarginLoss.total x lbl ctr mg := by
  funext i
  rw [val_main_v31_apply, val_main_v30_apply, val_main_cst_7_apply, val_main_cst_8_apply, Ideal.hostDivf_def,
    Ideal.ofBits_def, Ideal.ofBits_def, Ideal.ofBits_zero_f32, zero_add, RankOneSum.sum_idx1]
  unfold Cert.MarginLoss.total
  refine congrArg (fun s => Ideal.div s Cert.MarginLoss.BATCH) (Finset.sum_congr rfl fun r _ => ?_)
  exact v29_row x lbl ctr mg r

end Cert.MarginLoss.Ref

end
-- ==== Proof.LibPadRows.lean ====
/-
  A stablehlo pad of an [n,c] matrix by rows at the bottom only (low [0,0], high [p,0], no interior padding), read at
  coordinates of the [N,c] result: a row below n is the operand's row, a row from n on is the padding value.
  Any extents and element type.
-/
import Idealize.ShloMosaic.Lib.KernelVsHost
import Idealize.ShloMosaic.Lib.ValueIdx

namespace Idealize.ShloMosaic.ValueIdx

open Idealize.ShloMosaic

variable {α : Type}

/-- A row of the operand: the padded matrix at (q, k), q < n, is the operand at (q, k). -/
theorem pad_rows_apply_of_lt {n c N p : Nat} (x : (⟨2, ![n, c]⟩ : Shape).Idx → α) {u : Shape} (v : u.Idx → α)
    (h : (⟨2, ![n, c]⟩ : Shape).Pads (![0, 0] : Fin 2 → Nat) ![p, 0] ![0, 0] ⟨2, ![N, c]⟩) (hu : 0 < u.numel)
    (q : Fin N) (k : Fin c) (q' : Fin n) (hq : q.val = q'.val) :
    pad ⟨2, ![N, c]⟩ ![0, 0] ![p, 0] ![0, 0] x v h hu (ix2 q k) = x (ix2 q' k) :=
  pad_apply_of_inside _ _ _ x v h hu (ix2 q k) (ix2 q' k) (fun a => by
    match a with
    | ⟨0, _⟩ => show q.val = 0 + q'.val * (0 + 1); omega
    | ⟨1, _⟩ => show k.val = 0 + k.val * (0 + 1); omega)

/-- A padding row: the padded matrix at (q, k), n ≤ q, is the padding value. -/
theorem pad_rows_apply_of_ge {n c N p : Nat} (x : (⟨2, ![n, c]⟩ : Shape).Idx → α) {u : Shape} (v : u.Idx → α)
    (h : (⟨2, ![n, c]⟩ : Shape).Pads (![0, 0] : Fin 2 → Nat) ![p, 0] ![0, 0] ⟨2, ![N, c]⟩) (hu : 0 < u.numel)
    (q : Fin N) (k : Fin c) (hq : n ≤ q.val) :
    pad ⟨2, ![N, c]⟩ ![0, 0] ![p, 0] ![0, 0] x v h hu (ix2 q k) = v (Shape.Idx.first hu) :=
  pad_apply_of_not_inside _ _ _ x v h hu (ix2 q k) (0 : Fin 2) (fun hin => by
    have h3 : (q.val - 0) / (0 + 1) < n := hin.2.2
    rw [Nat.sub_zero, Nat.div_one] at h3
    omega)

end Idealize.ShloMosaic.ValueIdx
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.KernelEntry.lean ====
/-
  The arrays the kernel region finds when it is entered, read at coordinates.

  Before the region the host reshapes the labels into a column, pads the centres with 24 zero rows to 1024, squares and
  sums each padded row into a one-row matrix of squared norms, narrows the padded centres' float format (the identity on
  the extended reals) and reshapes the margin into a [1,1] matrix. So the region's five input arrays are: the points as
  launched; the labels as a column; the padded centres; the padded centres' squared norms as a row; the margin.
-/
import proofs.«113362_j2250562863872_2_alg».proof.Proof.Gen.KernelIdeal.Frame
import proofs.«113362_j2250562863872_2_alg».proof.Proof.Spec
import proofs.«113362_j2250562863872_2_alg».proof.Proof.LibPadRows
import proofs.«113362_j2250562863872_2_alg».proof.Proof.LibColumnBroadcast
import proofs.«113362_j2250562863872_2_alg».proof.Proof.LibOneRowMatrix
import Idealize.ShloMosaic.Lib.StableHlo.Run
import Idealize.ShloMosaic.Lib.Pipeline.Value
import Idealize.ShloMosaic.PureOps.Ideal.Laws

noncomputable section

namespace Cert.MarginLoss.Entry

open Cert.KernelIdeal Cert.KernelIdeal.Gen Cert.MarginLoss
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The points, the labels, the centres and the margin as launched on core `c`. -/
abbrev pts (c : Dev nD) : S16384x512.Idx → EReal := m ((c : Thread nD τ).loc main_arg0)
abbrev lbls (c : Dev nD) : S16384.Idx → BitVec 32 := m ((c : Thread nD τ).loc main_arg1)
abbrev ctrs (c : Dev nD) : S1000x512.Idx → EReal := m ((c : Thread nD τ).loc main_arg2)
abbrev mrg (c : Dev nD) : S1.Idx → EReal := m ((c : Thread nD τ).loc main_arg3)

/-- The host's padded table: the centres with 24 rows of the converted integer zero appended. -/
abbrev hostPad (c : Dev nD) : FVec Ideal S1024x512 .f32 :=
  pad S1024x512 ![0, 0] ![24, 0] ![0, 0] (ctrs m c) (sitofp (F := Ideal) .f32 (constantI S_ 32 0#32)) pads_S1000x512_S1024x512_0240_000 h_S_

/-! ## The host operations before the region, composed -/

theorem V_labels (c : Dev nD) :
    (V m c main_v0 : S16384x1.Idx → BitVec 32) = shapeCast S16384x1 (lbls m c) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

theorem V_margin (c : Dev nD) :
    (V m c main_v6 : S1x1.Idx → EReal) = shapeCast S1x1 (mrg m c) shapeCasts_S1_S1x1 := by
  dsimp only [Gen.V, Gen.V0]
  simp only [Gen.hostOps0, Gen.hostOps0_1, Gen.hostOps0_2, List.flatten_cons, List.flatten_nil, List.append_nil, List.cons_append, List.nil_append]
  after_results
  rfl

theorem V_centers (c : Dev nD) :
    (V m c main_v5 : S1024x512.Idx → EReal) = truncf (F := Ideal) .bf16 (hostPad m c) bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

theorem V_norms (c : Dev nD) :
    (V m c main_v4 : S1x1024.Idx → EReal) = shapeCast S1x1024 (Host.reduceAdd (F := Ideal) (mulf (hostPad m c) (hostPad m c)) (constant (F := Ideal) S_ .f32 0x00000000#32) reducesTo_S1024x512_S1024_d1 h_S_) shapeCasts_S1024_S1x1024 := by
  dsimp only [Gen.V, Gen.V0]
  simp only [Gen.hostOps0, Gen.hostOps0_1, Gen.hostOps0_2, List.flatten_cons, List.flatten_nil, List.append_nil, List.cons_append, List.nil_append]
  after_results
  rfl

/-! ## Read at coordinates -/

/-- The label column at row `r` is the label of point `r`. -/
theorem labels_at (c : Dev nD) (r : Fin 16384) :
    (V m c main_v0 : S16384x1.Idx → BitVec 32) (ix2 r (0 : Fin 1)) = lbls m c (ix1 r) := by
  rw [V_labels]
  exact ColumnBroadcast.shapeCast_a_a1_apply (lbls m c) shapeCasts_S16384_S16384x1 r 0

/-- The [1,1] margin matrix holds the margin. -/
theorem margin_at (c : Dev nD) :
    (V m c main_v6 : S1x1.Idx → EReal) (ix2 (0 : Fin 1) (0 : Fin 1)) = mrg m c (ix1 (0 : Fin 1)) := by
  rw [V_margin]
  exact OneRowMatrix.row_of_vector (mrg m c) shapeCasts_S1_S1x1 0

/-- The integer zero converted to a float is zero. -/
theorem pad_value : (sitofp (F := Ideal) .f32 (constantI S_ 32 0#32)) (Shape.Idx.first h_S_) = (0 : EReal) := by
  show ((((0#32 : BitVec 32).toInt : ℤ) : ℝ) : EReal) = 0
  have e : (0#32 : BitVec 32).toInt = 0 := by decide
  rw [e]; simp

/-- The host's padded table is the centres padded with zero rows. -/
theorem hostPad_eq (c : Dev nD) : hostPad m c = padded (ctrs m c) := by
  funext i
  obtain ⟨q, k, rfl⟩ : ∃ (q : Fin 1024) (k : Fin 512), i = ix2 q k := ⟨i 0, i 1, eq_ix2 i⟩
  by_cases hq : q.val < 1000
  · refine (pad_rows_apply_of_lt (ctrs m c) _ pads_S1000x512_S1024x512_0240_000 h_S_ q k ⟨q.val, hq⟩ rfl).trans ?_
    unfold padded
    rw [dif_pos (show ((ix2 q k : (⟨2, ![1024, 512]⟩ : Shape).Idx) 0).val < 1000 from hq)]
  · refine (pad_rows_apply_of_ge (ctrs m c) _ pads_S1000x512_S1024x512_0240_000 h_S_ q k (by omega)).trans ?_
    unfold padded
    rw [dif_neg (show ¬ ((ix2 q k : (⟨2, ![1024, 512]⟩ : Shape).Idx) 0).val < 1000 from hq)]
    exact pad_value

/-- The table the kernel multiplies by is the padded centres (the narrower float format changes nothing). -/
theorem centers_eq (c : Dev nD) : (V m c main_v5 : S1024x512.Idx → EReal) = padded (ctrs m c) := by
  rw [V_centers, hostPad_eq]
  funext i
  show FloatOps.truncf (F := Ideal) .bf16 bitsLt_bf16_f32 (padded (ctrs m c) i) = _
  rw [Ideal.truncf_def]

/-- A host row sum of squares from the zero word, at row `q`: the row's squared norm. -/
theorem rowNorms_apply (P : FVec Ideal S1024x512 .f32) (q : Fin 1024) :
    (Host.reduceAdd (F := Ideal) (mulf P P) (constant (F := Ideal) S_ .f32 0x00000000#32) reducesTo_S1024x512_S1024_d1 h_S_) (ix1 q)
      = ccP P q := by
  simp only [Host.reduceAdd, Ideal.hostReduceAdd_def]
  rw [Ideal.hostReduceAdd_single reducesTo_S1024x512_S1024_d1 (by decide)]
  unfold ccP
  have z : (constant (F := Ideal) S_ .f32 0x00000000#32) (Shape.Idx.first h_S_) = (0 : EReal) :=
    Ideal.ofBits_zero_f32
  rw [z, zero_add]
  refine Finset.sum_congr rfl fun k _ => ?_
  have e : (Shape.Reduces.lift (by decide : S1024x512.Reduces [1] S1024) (ix1 q) k) = ix2 q k :=
    funext fun a => Fin.ext (by match a with | ⟨0, _⟩ => rfl | ⟨1, _⟩ => rfl)
  show P _ * P _ = _
  rw [e]
  rfl

/-- The row of squared norms at column `q` is the squared norm of the padded table's row `q`. -/
theorem norms_at (c : Dev nD) (q : Fin 1024) :
    (V m c main_v4 : S1x1024.Idx → EReal) (ix2 (0 : Fin 1) q) = ccP (padded (ctrs m c)) q := by
  rw [V_norms, hostPad_eq]
  exact (OneRowMatrix.row_of_vector _ shapeCasts_S1024_S1x1024 q).trans (rowNorms_apply _ q)

end Cert.MarginLoss.Entry

end
-- ==== Proof.LibRowReduce.lean ====
/-
  A reduction of a matrix along its second axis, read at a row.

  On the extended reals a `vector.multi_reduction` of an `[a, b]` array over axis 1 into `[a]` is, at row `p`,
  the sum (for `add`), the maximum folded from the accumulator's value (for `maximumf`) or the minimum folded from
  the accumulator's value (for `minimumf`) of the row's entries `(p, k)`, `k : Fin b`. The library reads such a
  reduction over the coordinates of the dropped axis with the reduced index re-inserted; here the re-inserted index is
  written by its coordinates. Also: the f32 words of minus infinity and of 8192.
-/
import Idealize.ShloMosaic.PureOps.Ideal.Laws
import Idealize.ShloMosaic.Lib.ValueIdx

namespace Idealize.ShloMosaic.RowReduce

open Idealize.ShloMosaic Idealize.ShloMosaic.ValueIdx

/-- Row `p` with column `k` inserted on the dropped axis is the index `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A sum along the rows: at row `p`, the sum over `k` of the entries `(p, k)`. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A maximum along the rows: at row `p`, the maximum folded from the accumulator's value over the entries `(p, k)`. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (fun f : Fin b → EReal => (Finset.univ : Finset (Fin b)).fold max (Ideal.ofBits φ acc) f)
    (funext fun k => congrArg src (lift_row h p k))

/-- A minimum along the rows: at row `p`, the minimum folded from the accumulator's value over the entries `(p, k)`. -/
theorem multiReduction_minimumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) := by
  classical
  rw [multiReduction_minimumf_eq_fold]
  refine (h.fold_filter_drop_single _ _ src (ix1 p)).trans ?_
  exact congrArg (fun f : Fin b → EReal => (Finset.univ : Finset (Fin b)).fold min (Ideal.ofBits φ acc) f)
    (funext fun k => congrArg src (lift_row h p k))

/-- The f32 word of minus infinity is the bottom element. -/
theorem ofBits_neg_inf : Ideal.ofBits .f32 0xFF800000#32 = ⊥ := by
  simp [Ideal.ofBits, Ideal.ieee]

/-- The f32 word `0x46000000` is the real number 8192. -/
theorem ofBits_8192 : Ideal.ofBits .f32 0x46000000#32 = ((8192 : ℝ) : EReal) := by
  simp [Ideal.ofBits, Ideal.ieee, -EReal.coe_mul]; norm_num

end Idealize.ShloMosaic.RowReduce
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.BodyValue.lean ====
/-
  The value the kernel body stores, as a function of the blocks it loads.

  The body loads a block of 1024 points (one row each), their labels, the padded table of 1024 centres, the centres'
  squared norms as one row, and the margin. It forms the matrix of squared distances `(‖x_p‖² + ‖c_q‖²) − 2·⟨x_p, c_q⟩`,
  picks each row's own-class distance by summing a one-hot selection along the row, takes the minimum over the other
  real classes by masking the own class and the padding columns with the top element, and stores, at every entry of an
  [8,128] block, the sum over the 1024 rows of `max (margin + own − nearest other, 0)` times 1/8.

  The steps: the distance matrix read at an entry (`distM_apply`); the row values over any distance matrix
  (`rowVal_apply`); the stored block over any two columns (`pay1_apply`); and their composition (`body_apply`).
-/
import proofs.«113362_j2250562863872_2_alg».proof.Proof.Gen.KernelIdeal.Skeleton
import proofs.«113362_j2250562863872_2_alg».proof.Proof.Spec
import proofs.«113362_j2250562863872_2_alg».proof.Proof.LibRowReduce
import proofs.«113362_j2250562863872_2_alg».proof.Proof.LibIndicator
import proofs.«113362_j2250562863872_2_alg».proof.Proof.LibMatmulRowsByRowsOf
import proofs.«113362_j2250562863872_2_alg».proof.Proof.LibColumnBroadcast
import proofs.«113362_j2250562863872_2_alg».proof.Proof.LibOneRowMatrix
import Idealize.ShloMosaic.PureOps.IdealRules

noncomputable section

namespace Cert.MarginLoss.Body

open Cert.KernelIdeal Cert.KernelIdeal.Gen Cert.MarginLoss Idealize.ShloMosaic Idealize.ShloMosaic.ValueIdx

/-- The distance matrix of the kernel body: row norms plus centre norms minus twice the inner products. -/
def distM (x0 : Vec Ideal S1024x512 .f32) (v3 : Vec Ideal S1024x512 .bf16) (v5 : Vec Ideal S1x1024 .f32) :
    FVec Ideal S1024x1024 .f32 :=
  have v4 : FVec Ideal S1024x512 .bf16 := shapeCast S1024x512 v3 shapeCasts_S1024x512_S1024x512
  have v6 : FVec Ideal S1x1024 .f32 := shapeCast S1x1024 v5 shapeCasts_S1x1024_S1x1024
  have v9 : FVec Ideal S1024x512 .f32 := mulf x0 x0
  have v10 : FVec Ideal S1024 .f32 := multiReduction .add [1] S1024 v9 0x00000000#32 reduces_S1024x512_S1024 (.inl rfl) rfl
  have v11 : FVec Ideal S1024x1 .f32 := shapeCast S1024x1 v10 shapeCasts_S1024_S1024x1
  have v12 : FVec Ideal S1024x512 .bf16 := truncf .bf16 x0 bitsLt_bf16_f32
  have cst_9 : FVec Ideal S1024x1024 .f32 := constant S1024x1024 .f32 0x00000000#32
  have v13 : FVec Ideal S1024x1024 .f32 := matmul dot_S1024x512_S1024x512_S1024x1024_1_1_0_0_n_n none v12 v4 cst_9
  have v14 : FVec Ideal S1024x1024 .f32 := broadcastTo S1024x1024 v11 broadcasts_S1024x1_S1024x1024
  have v15 : FVec Ideal S1024x1024 .f32 := broadcastTo S1024x1024 v6 broadcasts_S1x1024_S1024x1024
  have v16 : FVec Ideal S1024x1024 .f32 := addf v14 v15
  have cst_10 : Ideal .f32 := Scalar.ofBits .f32 0x40000000#32
  have v17 : FVec Ideal S1024x1024 .f32 := broadcast S1024x1024 cst_10
  have v18 : FVec Ideal S1024x1024 .f32 := mulf v17 v13
  subf v16 v18

/-- The contraction record reads its left operand at (row of the result, contraction index) … -/
theorem dot_lhs0 (j : S1024x1024.Idx) (c : dot_S1024x512_S1024x512_S1024x1024_1_1_0_0_n_n.contr.Idx) :
    (dot_S1024x512_S1024x512_S1024x1024_1_1_0_0_n_n.lhsIdx j c 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- (second coordinate of the left operand: the contraction index) -/
theorem dot_lhs1 (j : S1024x1024.Idx) (c : dot_S1024x512_S1024x512_S1024x1024_1_1_0_0_n_n.contr.Idx) :
    (dot_S1024x512_S1024x512_S1024x1024_1_1_0_0_n_n.lhsIdx j c 1).val = (c ⟨0, by decide⟩).val :=
  dot_S1024x512_S1024x512_S1024x1024_1_1_0_0_n_n.lhsIdx_val_of_single rfl j c

/-- … and its right operand at (column of the result, contraction index). -/
theorem dot_rhs0 (j : S1024x1024.Idx) (c : dot_S1024x512_S1024x512_S1024x1024_1_1_0_0_n_n.contr.Idx) :
    (dot_S1024x512_S1024x512_S1024x1024_1_1_0_0_n_n.rhsIdx j c 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- (second coordinate of the right operand: the contraction index) -/
theorem dot_rhs1 (j : S1024x1024.Idx) (c : dot_S1024x512_S1024x512_S1024x1024_1_1_0_0_n_n.contr.Idx) :
    (dot_S1024x512_S1024x512_S1024x1024_1_1_0_0_n_n.rhsIdx j c 1).val = (c ⟨0, by decide⟩).val :=
  dot_S1024x512_S1024x512_S1024x1024_1_1_0_0_n_n.rhsIdx_val_of_single rfl j c

/-- The distance matrix at `(p, q)`: `(‖x_p‖² + ‖c_q‖²) − 2·⟨x_p, c_q⟩`, the inner product taken with the table's row `q`. -/
theorem distM_apply (x0 : Vec Ideal S1024x512 .f32) (v3 : Vec Ideal S1024x512 .bf16) (v5 : Vec Ideal S1x1024 .f32)
    (p q : Fin 1024) :
    distM x0 v3 v5 (ix2 p q)
      = sqd (∑ k : Fin 512, x0 (ix2 p k) * x0 (ix2 p k)) (v5 (ix2 0 q)) (∑ k : Fin 512, x0 (ix2 p k) * v3 (ix2 q k)) := by
  unfold distM sqd
  simp only []
  rw [subf_apply, addf_apply, mulf_apply, broadcast_apply]
  refine congrArg₂ (· - ·) (congrArg₂ (· + ·) ?_ ?_) (congrArg₂ (· * ·) rfl ?_)
  · refine (ColumnBroadcast.broadcastTo_a1_ab_apply _ _ p q).trans ?_
    refine (ColumnBroadcast.shapeCast_a_a1_apply _ _ p 0).trans ?_
    exact RowReduce.multiReduction_add_row (mulf x0 x0) _ reduces_S1024x512_S1024 _ _ p
  · refine (OneRowMatrix.broadcast_row_apply _ _ p q).trans ?_
    rw [shapeCast_self]
  · rw [shapeCast_self]
    exact MatmulRowsByRowsOf.matmul_zero_apply dot_S1024x512_S1024x512_S1024x1024_1_1_0_0_n_n rfl rfl
      dot_lhs0 dot_lhs1 dot_rhs0 dot_rhs1 none (truncf .bf16 x0 bitsLt_bf16_f32) v3 p q

/-- The rest of the row computation, over any distance matrix `D`: margin plus the own-class distance (a one-hot
    selection summed along the row) minus the minimum over the other, real classes (own class and padding columns
    masked by the top element). -/
def rowVal (D : FVec Ideal S1024x1024 .f32) (v1 : Vec Ideal S1024x1 .i32) (v7 : Vec Ideal S1x1 .f32) :
    FVec Ideal S1024x1 .f32 :=
  have v2 : IVec S1024x1 32 := shapeCast S1024x1 v1 shapeCasts_S1024x1_S1024x1
  have v8 : Ideal .f32 := extractAt ![0, 0] v7 inpos_S1x1_p0_0
  have v20 : IVec S1024x1024 32 := iota .tc S1024x1024 32 [1] iota_S1024x1024_d1_w32
  have v21 : IVec S1024x1024 32 := broadcast S1024x1024 1000#32
  have v22 : IVec S1024x1024 1 := cmpi .slt v20 v21
  have v23 : IVec S1024x1024 32 := broadcastTo S1024x1024 v2 broadcasts_S1024x1_S1024x1024
  have v24 : IVec S1024x1024 1 := cmpi .eq v23 v20
  have cst_11 : Ideal .f32 := Scalar.ofBits .f32 0x00000000#32
  have v25 : FVec Ideal S1024x1024 .f32 := broadcast S1024x1024 cst_11
  have v26 : FVec Ideal S1024x1024 .f32 := select v24 D v25
  have v27 : FVec Ideal S1024 .f32 := multiReduction .add [1] S1024 v26 0x00000000#32 reduces_S1024x1024_S1024 (.inl rfl) rfl
  have v28 : FVec Ideal S1024x1 .f32 := shapeCast S1024x1 v27 shapeCasts_S1024_S1024x1
  have cst_13 : IVec S1024x1024 1 := constantI S1024x1024 1 1#1
  have v29 : IVec S1024x1024 1 := xori v22 cst_13
  have v30 : IVec S1024x1024 1 := ori v24 v29
  have cst_14 : Ideal .f32 := Named.named κ "pos_big" 0x7149F2CA#32
  have v31 : FVec Ideal S1024x1024 .f32 := broadcast S1024x1024 cst_14
  have v32 : FVec Ideal S1024x1024 .f32 := select v30 v31 D
  have v33 : FVec Ideal S1024 .f32 := multiReduction .minimumf [1] S1024 v32 0x7F800000#32 reduces_S1024x1024_S1024 (.inl rfl) rfl
  have v34 : FVec Ideal S1024x1 .f32 := shapeCast S1024x1 v33 shapeCasts_S1024_S1024x1
  have v35 : FVec Ideal S1024x1 .f32 := broadcast S1024x1 v8
  have v36 : FVec Ideal S1024x1 .f32 := addf v35 v28
  subf v36 v34

/-- The kernel body's row values are `rowVal` of its distance matrix. -/
theorem pay2_eq (x0 : Vec Ideal S1024x512 .f32) (v1 : Vec Ideal S1024x1 .i32) (v3 : Vec Ideal S1024x512 .bf16)
    (v5 : Vec Ideal S1x1024 .f32) (v7 : Vec Ideal S1x1 .f32) :
    k0_pay2 (F := Ideal) x0 v1 v3 v5 v7 = rowVal (distM x0 v3 v5) v1 v7 := rfl

/-- A column index below 1024 compares below 1000 as a signed 32-bit word exactly when it is below 1000. -/
theorem slt_1000_iff (q : Fin 1024) : IntOp.cmpi .slt (BitVec.ofNat 32 q.val) 1000#32 = 1#1 ↔ q.val < 1000 :=
  (by decide +kernel : ∀ q : Fin 1024, IntOp.cmpi .slt (BitVec.ofNat 32 q.val) 1000#32 = 1#1 ↔ q.val < 1000) q

/-- Bitwise-or disjoins two one-bit conditions. -/
theorem ori_eq_one_iff (c d : BitVec 1) : IntOp.ori c d = 1#1 ↔ c = 1#1 ∨ d = 1#1 := by
  rcases BitVec.eq_zero_or_eq_one c with h | h <;> rcases BitVec.eq_zero_or_eq_one d with h' | h' <;>
    subst h <;> subst h' <;> decide

/-- The named large constant is the top element on the extended reals. -/
theorem pos_big_eq_top : Named.named (F := Ideal) κ "pos_big" (φ := .f32) 0x7149F2CA#32 = ⊤ :=
  IdealRules.named_const.ideal_named_scalar _ _ _ _ rfl

/-- Row `p`'s value over a distance matrix `D`: the margin plus the selected own-class distance, minus the minimum
    over the columns with the own class and the padding columns masked. -/
theorem rowVal_apply (D : FVec Ideal S1024x1024 .f32) (v1 : Vec Ideal S1024x1 .i32) (v7 : Vec Ideal S1x1 .f32)
    (p : Fin 1024) :
    rowVal D v1 v7 (ix2 p 0)
      = (v7 (ix2 0 0) + ∑ c : Fin 1024, if v1 (ix2 p 0) = BitVec.ofNat 32 c.val then D (ix2 p c) else 0)
        - (Finset.univ : Finset (Fin 1024)).fold min ⊤
            (fun c => if v1 (ix2 p 0) = BitVec.ofNat 32 c.val ∨ ¬ c.val < 1000 then ⊤ else D (ix2 p c)) := by
  unfold rowVal
  simp only []
  rw [subf_apply, addf_apply, broadcast_apply]
  have hown : ∀ c : Fin 1024,
      (cmpi .eq (broadcastTo S1024x1024 (shapeCast S1024x1 v1 shapeCasts_S1024x1_S1024x1) broadcasts_S1024x1_S1024x1024)
        (iota .tc S1024x1024 32 [1] iota_S1024x1024_d1_w32) (ix2 p c) = 1#1) ↔ v1 (ix2 p 0) = BitVec.ofNat 32 c.val := by
    intro c
    show IntOp.cmpi .eq _ _ = 1#1 ↔ _
    rw [Indicator.cmpi_eq_eq_one_iff, ColumnBroadcast.broadcastTo_a1_ab_apply, shapeCast_self,
      iota_single_apply .tc S1024x1024 32 (1 : Fin 2)]
  refine congrArg₂ (· - ·) (congrArg₂ (· + ·) ?_ ?_) ?_
  · exact congrArg v7 (funext fun a => Fin.ext (by
      match a with
      | ⟨0, _⟩ => rfl
      | ⟨1, _⟩ => rfl))
  · refine (ColumnBroadcast.shapeCast_a_a1_apply _ _ p 0).trans ?_
    refine (RowReduce.multiReduction_add_row _ _ reduces_S1024x1024_S1024 _ _ p).trans ?_
    refine Finset.sum_congr rfl fun c _ => ?_
    rw [select_apply, Indicator.select_eq_ite, broadcast_apply]
    by_cases hc : v1 (ix2 p 0) = BitVec.ofNat 32 c.val
    · rw [if_pos ((hown c).mpr hc), if_pos hc]
    · rw [if_neg (fun h => hc ((hown c).mp h)), if_neg hc]
      exact Ideal.ofBits_zero_f32
  · refine (ColumnBroadcast.shapeCast_a_a1_apply _ _ p 0).trans ?_
    refine (RowReduce.multiReduction_minimumf_row _ _ reduces_S1024x1024_S1024 _ _ p).trans ?_
    rw [ofBits_pos_inf]
    refine congrArg (fun f : Fin 1024 → EReal => (Finset.univ : Finset (Fin 1024)).fold min ⊤ f) (funext fun c => ?_)
    rw [select_apply, Indicator.select_eq_ite, broadcast_apply, pos_big_eq_top]
    have hmask : (ori (cmpi .eq (broadcastTo S1024x1024 (shapeCast S1024x1 v1 shapeCasts_S1024x1_S1024x1) broadcasts_S1024x1_S1024x1024)
          (iota .tc S1024x1024 32 [1] iota_S1024x1024_d1_w32))
        (xori (cmpi .slt (iota .tc S1024x1024 32 [1] iota_S1024x1024_d1_w32) (broadcast S1024x1024 1000#32))
          (constantI S1024x1024 1 1#1)) (ix2 p c) = 1#1) ↔ (v1 (ix2 p 0) = BitVec.ofNat 32 c.val ∨ ¬ c.val < 1000) := by
      show IntOp.ori _ (IntOp.xori (IntOp.cmpi .slt _ (1000#32)) 1#1) = 1#1 ↔ _
      rw [ori_eq_one_iff, Indicator.xori_one_eq_one_iff, iota_single_apply .tc S1024x1024 32 (1 : Fin 2)]
      exact or_congr (hown c) (not_congr (slt_1000_iff c))
    by_cases hc : v1 (ix2 p 0) = BitVec.ofNat 32 c.val ∨ ¬ c.val < 1000
    · rw [if_pos (hmask.mpr hc), if_pos hc]
    · rw [if_neg (fun h => hc (hmask.mp h)), if_neg hc]

/-- Column `u` with row `k` inserted on the dropped first axis is the index `(k, u)`. -/
theorem lift_col {a : ℕ} (h : (⟨2, ![a, 1]⟩ : Shape).Reduces [0] ⟨1, ![1]⟩) (u : Fin 1) (k : Fin a) :
    h.lift (ix1 u) k = ix2 k u := by
  funext c
  apply Fin.ext
  match c with
  | ⟨0, _⟩ => rfl
  | ⟨1, _⟩ => rfl

/-- A one-entry matrix broadcast to any matrix reads its one entry everywhere. -/
theorem broadcastTo_11_apply {α : Type} {m n : ℕ} (b : (⟨2, ![1, 1]⟩ : Shape).Idx → α)
    (h : (⟨2, ![1, 1]⟩ : Shape).Broadcasts ⟨2, ![m, n]⟩) (i : Fin m) (l : Fin n) :
    broadcastTo (⟨2, ![m, n]⟩ : Shape) b h (ix2 i l) = b (ix2 0 0) :=
  broadcastTo_apply b h (ix2 i l) (ix2 0 0) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- The stored block: every entry is the sum over the 1024 rows of the larger of the two columns, times 1/8. -/
theorem pay1_apply (v37 v38 : FVec Ideal S1024x1 .f32) (i : Fin 8) (l : Fin 128) :
    k0_pay1 (F := Ideal) v37 v38 (ix2 i l) = (∑ p : Fin 1024, max (v37 (ix2 p 0)) (v38 (ix2 p 0))) * EIGHTH := by
  unfold k0_pay1
  simp only []
  refine (broadcastTo_11_apply _ _ i l).trans ?_
  rw [shapeCast_self, mulf_apply, broadcast_apply]
  refine congrArg₂ (· * ·) ?_ rfl
  refine (ColumnBroadcast.shapeCast_a_a1_apply _ _ 0 0).trans ?_
  refine (Ideal.multiReduction_add_single _ _ reduces_S1024x1_S1 _ _ (ix1 0)).trans ?_
  refine Finset.sum_congr rfl fun p _ => ?_
  rw [lift_col reduces_S1024x1_S1 0 p]
  rfl

/-- THE BODY'S STORED VALUE: at every entry of the [8,128] block, the sum of the 1024 rows' padded losses times 1/8. -/
theorem body_apply (x0 : Vec Ideal S1024x512 .f32) (v1 : Vec Ideal S1024x1 .i32) (v3 : Vec Ideal S1024x512 .bf16)
    (v5 : Vec Ideal S1x1024 .f32) (v7 : Vec Ideal S1x1 .f32) (i : Fin 8) (l : Fin 128) :
    k0_pay1 (F := Ideal) (k0_pay2 (F := Ideal) x0 v1 v3 v5 v7) (k0_pay3 (F := Ideal)) (ix2 i l)
      = (∑ p : Fin 1024, rowLossPadded (v7 (ix2 0 0)) (v1 (ix2 p 0))
            (fun q => sqd (∑ k : Fin 512, x0 (ix2 p k) * x0 (ix2 p k)) (v5 (ix2 0 q))
              (∑ k : Fin 512, x0 (ix2 p k) * v3 (ix2 q k)))) * EIGHTH := by
  rw [pay1_apply]
  refine congrArg₂ (· * ·) (Finset.sum_congr rfl fun p _ => ?_) rfl
  rw [pay2_eq, rowVal_apply]
  unfold rowLossPadded
  refine congrArg₂ max ?_ ?_
  · simp only [distM_apply]
  · exact Ideal.ofBits_zero_f32

end Cert.MarginLoss.Body
end
-- ==== Proof.KernelBlocks.lean ====
/-
  From the kernel's blocks to its whole output array.

  At grid point `t` (16 points) the kernel loads rows `1024 t … 1024 t + 1023` of the points and of the label column,
  the whole padded table, the whole row of squared norms and the margin, and stores into rows `8 t … 8 t + 7` of the
  [128,128] output the tile's sum of row losses times 1/8, in every entry. The 16 output blocks tile the array, so after
  the run the array is the specification's `partials`.
-/
import proofs.«113362_j2250562863872_2_alg».proof.Proof.Gen.KernelIdeal.Frame
import proofs.«113362_j2250562863872_2_alg».proof.Proof.Spec
import proofs.«113362_j2250562863872_2_alg».proof.Proof.KernelEntry
import proofs.«113362_j2250562863872_2_alg».proof.Proof.BodyValue
import Idealize.ShloMosaic.Lib.Pipeline.Value

set_option maxRecDepth 16384

noncomputable section

namespace Cert.MarginLoss.Blocks

open Cert.KernelIdeal Cert.KernelIdeal.Gen Cert.MarginLoss Cert.MarginLoss.Entry
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The grid point as a tile number. -/
def tileOf (t : Fin cfg0.N) : Fin 16 := ⟨t.val, lt_of_lt_of_eq t.isLt (show cfg0.N = 16 from N_0)⟩

/-- The printed index maps over the grid: the points, the labels and the output move with the grid point along the
    rows; the table, the norms and the margin stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block read at coordinates -/

/-- Row `p` of the points' block at point `t` is row `1024 t + p` of the points. -/
theorem points_block (c : Dev nD) (t : Fin cfg0.N) (p : Fin 1024) (k : Fin 512) :
    (iblk m c 0 t : Vec Ideal S1024x512 .f32) (ix2 p k) = pts m c (ix2 (rowOf (tileOf t) p) k) := by
  obtain ⟨e0, e1, -⟩ := index_maps t
  unfold iblk
  rw [View.read_apply]
  show V m c main_arg0 _ = pts m c _
  rw [V_main_arg0]
  refine congrArg (pts m c) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 512 + 1 * k.val = k.val; rw [e1]; omega

/-- Row `p` of the label block at point `t` is the label of point `1024 t + p`. -/
theorem labels_block (c : Dev nD) (t : Fin cfg0.N) (p : Fin 1024) :
    (iblk m c 1 t : Vec Ideal S1024x1 .i32) (ix2 p (0 : Fin 1)) = lbls m c (ix1 (rowOf (tileOf t) p)) := by
  obtain ⟨-, -, e0, e1, -⟩ := index_maps t
  unfold iblk
  rw [View.read_apply]
  show (V m c main_v0 : S16384x1.Idx → BitVec 32) _ = _
  refine Eq.trans (congrArg (V m c main_v0 : S16384x1.Idx → BitVec 32) (funext fun a => Fin.ext ?_)) (labels_at m c (rowOf (tileOf t) p))
  match a with
  | ⟨0, _⟩ => show win0_1.index t (0 : Fin 2) * 1024 + 1 * p.val = 1024 * t.val + p.val; rw [e0]; omega
  | ⟨1, _⟩ => show win0_1.index t (1 : Fin 2) * 1 + 1 * 0 = 0; rw [e1]

/-- The table's block is the whole padded table. -/
theorem table_block (c : Dev nD) (t : Fin cfg0.N) (q : Fin 1024) (k : Fin 512) :
    (iblk m c 2 t : Vec Ideal S1024x512 .bf16) (ix2 q k) = padded (ctrs m c) (ix2 q k) := by
  obtain ⟨-, -, -, -, e0, e1, -⟩ := index_maps t
  unfold iblk
  rw [View.read_apply]
  show (V m c main_v5 : S1024x512.Idx → EReal) _ = _
  rw [centers_eq]
  refine congrArg (padded (ctrs m c)) (funext fun a => Fin.ext ?_)
  match a with
  | ⟨0, _⟩ => show win0_2.index t (0 : Fin 2) * 1024 + 1 * q.val = q.val; rw [e0]; omega
  | ⟨1, _⟩ => show win0_2.index t (1 : Fin 2) * 512 + 1 * k.val = k.val; rw [e1]; omega

/-- The norms' block is the whole row of squared norms. -/
theorem norms_block (c : Dev nD) (t : Fin cfg0.N) (q : Fin 1024) :
    (iblk m c 3 t : Vec Ideal S1x1024 .f32) (ix2 (0 : Fin 1) q) = ccP (padded (ctrs m c)) q := by
  obtain ⟨-, -, -, -, -, -, e0, e1, -⟩ := index_maps t
  unfold iblk
  rw [View.read_apply]
  show (V m c main_v4 : S1x1024.Idx → EReal) _ = _
  refine Eq.trans (congrArg (V m c main_v4 : S1x1024.Idx → EReal) (funext fun a => Fin.ext ?_)) (norms_at m c q)
  match a with
  | ⟨0, _⟩ => show win0_3.index t (0 : Fin 2) * 1 + 1 * 0 = 0; rw [e0]
  | ⟨1, _⟩ => show win0_3.index t (1 : Fin 2) * 1024 + 1 * q.val = q.val; rw [e1]; omega

/-- The margin's block is the margin. -/
theorem margin_block (c : Dev nD) (t : Fin cfg0.N) :
    (iblk m c 4 t : Vec Ideal S1x1 .f32) (ix2 (0 : Fin 1) (0 : Fin 1)) = mrg m c (ix1 (0 : Fin 1)) := by
  obtain ⟨-, -, -, -, -, -, -, -, e0, e1, -⟩ := index_maps t
  unfold iblk
  rw [View.read_apply]
  show (V m c main_v6 : S1x1.Idx → EReal) _ = _
  refine Eq.trans (congrArg (V m c main_v6 : S1x1.Idx → EReal) (funext fun a => Fin.ext ?_)) (margin_at m c)
  match a with
  | ⟨0, _⟩ => show win0_4.index t (0 : Fin 2) * 1 + 1 * 0 = 0; rw [e0]
  | ⟨1, _⟩ => show win0_4.index t (1 : Fin 2) * 1 + 1 * 0 = 0; rw [e1]

/-! ## What a point writes back -/

/-- The partial results at a row of tile `T`. -/
theorem partials_of_tile (x : (⟨2, ![16384, 512]⟩ : Shape).Idx → EReal) (lbl : (⟨1, ![16384]⟩ : Shape).Idx → BitVec 32)
    (mg : (⟨1, ![1]⟩ : Shape).Idx → EReal) (P : (⟨2, ![1024, 512]⟩ : Shape).Idx → EReal)
    (j : (⟨2, ![128, 128]⟩ : Shape).Idx) (T : Fin 16) (h : (j 0).val / 8 = T.val) :
    partials x lbl mg P j = tileSum x lbl mg P T * EIGHTH := by
  unfold partials
  exact congrArg (fun T' => tileSum x lbl mg P T' * EIGHTH) (Fin.ext h)

/-- WHAT POINT `t` WRITES BACK is block `t` of the partial results. -/
theorem flushed_eq (c : Dev nD) (t : Fin cfg0.N) :
    (dats m 0 c).flushed 5 t
      = ((cfg0.win 5).blk t).view.read (Elt Ideal) (partials (pts m c) (lbls m c) (mrg m c) (padded (ctrs m c))) := by
  show (cfg0.win 5).cut (grid0.coords t) ((dats m 0 c).after 5 t) = _
  rw [after0_5]
  unfold out0_5
  rw [View.canon_unit_zero zero_offsets]
  simp only [View.ld_unit_zero (S := S1024x512) zero_offsets, View.ld_unit_zero (S := S1024x1) zero_offsets,
    View.ld_unit_zero (S := S1x1024) zero_offsets, View.ld_unit_zero (S := S1x1) zero_offsets]
  funext j
  obtain ⟨i, l, rfl⟩ : ∃ (i : Fin 8) (l : Fin 128), j = ix2 i l := ⟨j 0, j 1, eq_ix2 j⟩
  obtain ⟨-, -, -, -, -, -, -, -, -, -, e0, e1⟩ := index_maps t
  show k0_pay1 (F := Ideal) (k0_pay2 (F := Ideal) (iblk m c 0 t) (iblk m c 1 t) (iblk m c 2 t) (iblk m c 3 t) (iblk m c 4 t)) (k0_pay3 (F := Ideal)) (ix2 i l)
    = partials (pts m c) (lbls m c) (mrg m c) (padded (ctrs m c)) (((cfg0.win 5).blk t).view.emb (ix2 i l))
  refine (Cert.MarginLoss.Body.body_apply (iblk m c 0 t) (iblk m c 1 t) (iblk m c 2 t) (iblk m c 3 t) (iblk m c 4 t) i l).trans ?_
  rw [partials_of_tile _ _ _ _ _ (tileOf t) (by
    show (win0_5.index t (0 : Fin 2) * 8 + 1 * i.val) / 8 = t.val
    rw [e0]; have := i.isLt; omega)]
  unfold tileSum distP xx dotP
  refine congrArg (· * EIGHTH) (Finset.sum_congr rfl fun p _ => ?_)
  rw [margin_block m c t, labels_block m c t p]
  refine congrArg (rowLossPadded _ _) (funext fun q => ?_)
  rw [norms_block m c t q]
  refine congrArg₂ (sqd · (ccP (padded (ctrs m c)) q) ·) (Finset.sum_congr rfl fun k _ => ?_) (Finset.sum_congr rfl fun k _ => ?_)
  · rw [points_block m c t p k]
  · rw [points_block m c t p k, table_block m c t q k]

/-! ## The array after the run -/

/-- An index of the output is in point `t`'s block iff its coordinates are in the block's ranges. -/
theorem mem_block (t : Fin cfg0.N) (i : S128x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v7).slice (win0_5.rect t)).set ↔ _
  rw [View.set_slice_whole, Rect.mem_set_unit]
  exact Iff.rfl

/-- Every entry of the output is in the block of the point `row / 8`. -/
theorem covered (i : S128x128.Idx) : ∃ t : Fin cfg0.N, (cfg0.win 5).flush t = true ∧ i ∈ ((cfg0.win 5).blk t).view.set := by
  have h0 : (i 0).val < 128 := (i 0).isLt
  have h1 : (i 1).val < 128 := (i 1).isLt
  let t : Fin cfg0.N := ⟨(i 0).val / 8, by rw [show cfg0.N = 16 from N_0]; omega⟩
  obtain ⟨-, -, -, -, -, -, -, -, -, -, e0, e1⟩ := index_maps t
  refine ⟨t, flush0_5 t, ?_⟩
  rw [mem_block]
  intro a
  match a with
  | ⟨0, _⟩ => show win0_5.index t (0 : Fin 2) * 8 ≤ (i 0).val ∧ (i 0).val < win0_5.index t (0 : Fin 2) * 8 + 8; rw [e0]; show (i 0).val / 8 * 8 ≤ (i 0).val ∧ (i 0).val < (i 0).val / 8 * 8 + 8; omega
  | ⟨1, _⟩ => show win0_5.index t (1 : Fin 2) * 128 ≤ (i 1).val ∧ (i 1).val < win0_5.index t (1 : Fin 2) * 128 + 128; rw [e1]; omega

/-- THE OUTPUT ARRAY after the run is the partial results. -/
theorem final (c : Dev nD) :
    (dats m 0 c).arrAt 5 cfg0.N = partials (pts m c) (lbls m c) (mrg m c) (padded (ctrs m c)) :=
  (dats m 0 c).arrAt_eq_of_cover 5 _ (fun t _ => flushed_eq m c t) covered

end Cert.MarginLoss.Blocks

end
-- ==== Proof.LibColumnAsVector.lean ====
/-
  A one-column matrix viewed as a vector, read at an index given by coordinates: an `[a, 1]` array cast to `[a]`
  (what `m[:, 0]` or `m.reshape(a)` is, as a shape cast) reads, at `i`, the matrix's entry `(i, 0)`. The layout
  library has the row form `[1, a] → [a]`; this is the column form, with the row-major arithmetic discharged the same
  way. Any extent and any element type; imports only the library.
-/
import Idealize.ShloMosaic.Lib.Pipeline.Value
import Idealize.ShloMosaic.Lib.ValueIdx

namespace Idealize.ShloMosaic.ColumnAsVector

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnAsVector
-- ==== Proof.KernelTail.lean ====
/-
  The host lines after the kernel region, read as mathematics. After the region the program takes column 0 of the
  [128,128] array of partial results (a slice [0:128, 0:1]), views that one-column matrix as a vector of 128 entries,
  sums the vector starting from the zero word, and divides by the word of the batch size. So if the region leaves the
  array at G, the program's result is (∑ over the 128 rows j of G (j, 0)) divided by the batch size — the shape of the
  specification's second spelling of the result.
-/
import proofs.«113362_j2250562863872_2_alg».proof.Proof.Gen.KernelIdeal.Frame
import proofs.«113362_j2250562863872_2_alg».proof.Proof.Spec
import proofs.«113362_j2250562863872_2_alg».proof.Proof.LibColumnAsVector
import proofs.«113362_j2250562863872_2_alg».proof.Proof.LibRankOneSum
import Idealize.ShloMosaic.Lib.StableHlo.Run
import Idealize.ShloMosaic.Lib.Pipeline.Value
import Idealize.ShloMosaic.PureOps.Ideal.Laws

noncomputable section

namespace Cert.MarginLoss.Tail

open Cert.KernelIdeal Cert.KernelIdeal.Gen Cert.MarginLoss Idealize.ShloMosaic Idealize.ShloMosaic.TcCoe
open Idealize.ShloMosaic.ValueIdx Idealize.SL.Sem Idealize.ShloMosaic.StableHlo

/-- The four host operations after the region as one function of the [128,128] array: column 0, as a vector, summed
    from the zero word, divided by the batch-size word. -/
def tail (x : (⟨S128x128, .f32⟩ : BufTy).Contents (Elt Ideal)) : (⟨S_, .f32⟩ : BufTy).Contents (Elt Ideal) :=
  Host.divf (F := Ideal)
    (Host.reduceAdd (F := Ideal)
      (shapeCast S128 (extractStridedSlice S128x1 ![0, 0] x slices_S128x128_S128x1_0_0) shapeCasts_S128x1_S128)
      (constant (F := Ideal) S_ .f32 0x00000000#32) reducesTo_S128_S_d0 h_S_)
    (constant (F := Ideal) S_ .f32 0x46800000#32)

/-- Read at its one index: the sum of column 0 over the 128 rows, divided by the batch size. The host's division is the
    extended-real division; its sum into rank 0 is the initial word, which is zero, plus the sum over every index of the
    vector; the vector's entry j is the one-column matrix's entry (j, 0), which is the array's entry (j, 0). -/
theorem tail_apply (x : (⟨S128x128, .f32⟩ : BufTy).Contents (Elt Ideal)) (G : S128x128.Idx → EReal)
    (hx : (x : S128x128.Idx → EReal) = G) (i : S_.Idx) :
    (tail x i : EReal) = Ideal.div (∑ j : Fin 128, G (ix2 j (0 : Fin 128))) BATCH := by
  unfold tail
  show Ideal.div _ _ = _
  refine congrArg (fun z => Ideal.div z BATCH) ?_
  simp only [Host.reduceAdd, Ideal.hostReduceAdd_def]
  rw [Ideal.hostReduceAdd_total reducesTo_S128_S_d0 (fun b => b.elim0)]
  show Ideal.ofBits .f32 0x00000000#32 + _ = _
  rw [Ideal.ofBits_zero_f32, zero_add, RankOneSum.sum_idx1]
  refine Finset.sum_congr rfl fun j _ => ?_
  rw [ColumnAsVector.shapeCast_a1_a_apply]
  refine (extractStridedSlice_apply _ _ _ _ (ix2 j (0 : Fin 128)) (fun a => ?_)).trans (congrFun hx _)
  fin_cases a
  · show j.val = 0 + j.val
    omega
  · rfl

variable (m : (ℓ : Loc nD τ sig) → Buf (Elt Ideal) ℓ)

/-- THE HOST LINES AFTER THE REGION: when the region leaves the [128,128] array at G, the program's result is the sum
    of G's column 0 divided by the batch size. The lines' results are the four operations applied to the region's exit
    contents of the array, and those contents are the region's final array. -/
theorem tail_value (c : Dev nD) (G : S128x128.Idx → EReal) (hfin : ((dats m 0 c).arrAt 5 cfg0.N : S128x128.Idx → EReal) = G) :
    (Pipeline.afterTail₀ cfgs (dats m) 0 (V0 m) [hostOps1] c main_v11 : S_.Idx → EReal)
      = fun _ => Ideal.div (∑ j : Fin 128, G (ix2 j (0 : Fin 128))) BATCH := by
  unfold Pipeline.afterTail₀
  show StableHlo.after hostOps1 _ (Proc.devRef .tc main_v11) = _
  after_results
  funext i
  exact tail_apply _ G ((Pipeline.withArrays_arr spec0 launch0.win.arr_inj c _ _ 5).trans hfin) i

end Cert.MarginLoss.Tail

end
-- ==== Proof.KernelRun.lean ====
/-
  The idealized kernel's run, read: its result is the tiled spelling of the mean margin loss.

  The generated frame run ends with the region's output array at what the blocks written back make of it — the partial
  results, since the blocks tile the array — and with the host lines after the region applied to it: column 0 summed and
  divided by the batch size. The argument arrays end as launched.
-/
import proofs.«113362_j2250562863872_2_alg».proof.Proof.Gen.KernelIdeal.Frame
import proofs.«113362_j2250562863872_2_alg».proof.Proof.Spec
import proofs.«113362_j2250562863872_2_alg».proof.Proof.KernelEntry
import proofs.«113362_j2250562863872_2_alg».proof.Proof.KernelBlocks
import proofs.«113362_j2250562863872_2_alg».proof.Proof.KernelTail

noncomputable section

namespace Cert.MarginLoss.Run

open Cert.KernelIdeal Cert.KernelIdeal.Gen Cert.MarginLoss Cert.MarginLoss.Entry
open Idealize.ShloMosaic Idealize.ShloMosaic.TcCoe Idealize.ShloMosaic.ValueIdx Idealize.SL.Sem

variable (m : (ℓ : Loc nD τ sig) → Buf (Elt Ideal) ℓ) (ρ : Dev nD → PrngReg)

/-- Every weakly fair execution of the idealized kernel terminates with its result at the tiled spelling of the mean
    margin loss of the arguments as launched, and the arguments unchanged. -/
theorem run : θ_run defs (onTc (τ := τ) (main (F := Ideal))) ⟨m, fun _ => 0, ρ⟩ (fun r => ∀ c : Dev nD,
      r.2.mem ((c.tc : Thread nD τ).loc main_v11) = (fun _ => totalTiled (pts m c) (lbls m c) (mrg m c) (padded (ctrs m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans
        (Cert.MarginLoss.Tail.tail_value m c _ (Cert.MarginLoss.Blocks.final m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MarginLoss.Run

end
-- ==== Proof.lean ====
/-
  The certificate: a tiled kernel for the mean margin loss between each point's own class centre and its nearest other
  centre, against the plain formula.

  Both programs compute, for every point, the squared distances to the class centres as `(‖x‖² + ‖c‖²) − 2⟨x, c⟩`, pick
  the distance to the point's own class by a one-hot sum, take the minimum over the other classes by masking the own
  class with `+∞`, and average `max (margin + own − nearest other, 0)` over the batch. The kernel works on the centres
  padded with 24 zero rows, masks the padding columns under the minimum with a large constant read as `+∞`, sums the
  rows tile by tile and spreads each tile's sum as eight parts of one eighth. On the extended reals the two agree as soon
  as every label is a class index below 1000: then no padding column is ever selected, the masked padding columns are
  neutral for the minimum, and eight eighths of a nonnegative sum give it back. No finiteness of the entries is used.

  The frames of the two kernel programs are the generated ones; the reference's frame is its generated run with the
  result dropped; the one rewrite of the idealization names the large constant `+∞`.
-/
import proofs.«113362_j2250562863872_2_alg».proof.Defs
import proofs.«113362_j2250562863872_2_alg».proof.Proof.Gen.Kernel
import proofs.«113362_j2250562863872_2_alg».proof.Proof.Gen.Kernel.Skeleton
import proofs.«113362_j2250562863872_2_alg».proof.Proof.Gen.Kernel.Launch
import proofs.«113362_j2250562863872_2_alg».proof.Proof.Gen.Kernel.Points
import proofs.«113362_j2250562863872_2_alg».proof.Proof.Gen.Kernel.Frame
import proofs.«113362_j2250562863872_2_alg».proof.Proof.Gen.KernelIdeal
import proofs.«113362_j2250562863872_2_alg».proof.Proof.Gen.KernelIdeal.Skeleton
import proofs.«113362_j2250562863872_2_alg».proof.Proof.Gen.KernelIdeal.Launch
import proofs.«113362_j2250562863872_2_alg».proof.Proof.Gen.KernelIdeal.Points
import proofs.«113362_j2250562863872_2_alg».proof.Proof.Gen.KernelIdeal.Frame
import proofs.«113362_j2250562863872_2_alg».proof.Proof.Gen.ReferenceIdeal
import proofs.«113362_j2250562863872_2_alg».proof.Proof.Gen.ReferenceIdeal.Run
import proofs.«113362_j2250562863872_2_alg».proof.Proof.Gen.ReferenceIdeal.Read
import proofs.«113362_j2250562863872_2_alg».proof.Proof.Gen.Pre_finite_inputs
import proofs.«113362_j2250562863872_2_alg».proof.Proof.Spec
import proofs.«113362_j2250562863872_2_alg».proof.Proof.Algebra
import proofs.«113362_j2250562863872_2_alg».proof.Proof.LabelRange
import proofs.«113362_j2250562863872_2_alg».proof.Proof.RefValue
import proofs.«113362_j2250562863872_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the large fill constant is named `+∞`. -/
theorem preserves : Cert.preserves_Kernel_KernelIdeal :=
  IdealRules.named_const.statement Cert.KernelIdeal.κ "pos_big" .f32 0x7149F2CA#32 ⊤ rfl

/-- The idealized kernel ends at the tiled spelling of the mean margin loss, the idealized reference at the plain one,
    of arguments that agree; under the precondition every label is a class index below 1000, and the two spellings are
    equal. -/
theorem algebraic : Cert.algebraic_KernelIdeal_ReferenceIdeal := by
  intro m ρ m' ρ' hpre hagree
  refine ⟨fun c => fun _ => Cert.MarginLoss.total (Cert.MarginLoss.Entry.pts m c) (Cert.MarginLoss.Entry.lbls m c)
    (Cert.MarginLoss.Entry.ctrs m c) (Cert.MarginLoss.Entry.mrg m c), ?_, ?_⟩
  · refine (θ_run Cert.KernelIdeal.defs _ _).mono (fun _ h c => ⟨(h c).1.trans ?_, (h c).2⟩) (Cert.MarginLoss.Run.run m ρ)
    exact funext fun _ => Cert.MarginLoss.totalTiled_eq_total _ _ _ _
      (fun r => Cert.MarginLoss.Labels.label_lt (F := Ideal) _ _ _ _ (hpre c) r)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v31_eq, Cert.MarginLoss.Ref.reference_eq,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
